-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x16384 : Shape := ⟨3, ![16, 128, 16384]⟩
abbrev S64x128 : Shape := ⟨2, ![64, 128]⟩
abbrev S64 : Shape := ⟨1, ![64]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x128x16384 .f32) (main_arg1 : FVec F S64x128 .f32) (main_arg2 : FVec F S64x128 .f32) (main_arg3 : FVec F S64 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x128x16384 : Shape := ⟨3, ![16, 128, 16384]⟩
abbrev S64x128 : Shape := ⟨2, ![64, 128]⟩
abbrev S64 : Shape := ⟨1, ![64]⟩
abbrev S_ : Shape := ⟨0, ![]⟩
abbrev S64x1 : Shape := ⟨2, ![64, 1]⟩
abbrev S16x64x16384 : Shape := ⟨3, ![16, 64, 16384]⟩
abbrev S1x128x4096 : Shape := ⟨3, ![1, 128, 4096]⟩
abbrev S1x64x4096 : Shape := ⟨3, ![1, 64, 4096]⟩
abbrev S128x4096 : Shape := ⟨2, ![128, 4096]⟩
abbrev S64x4096 : Shape := ⟨2, ![64, 4096]⟩
abbrev S4096 : Shape := ⟨1, ![4096]⟩
abbrev S1x4096 : Shape := ⟨2, ![1, 4096]⟩

abbrev nBuf : Space → Nat
  | .hbm => 30
  | .vmem => 7
  | .smem => 0
  | _ => 0

abbrev bufTy : (tb : Table) → Fin (tcTables nBuf tb) → BufTy
  | .hbm, ⟨0, _⟩ => ⟨S16x128x16384, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64x1, .f32⟩
  | .hbm, ⟨29, _⟩ => ⟨S16x64x16384, .f32⟩
  | .local _ .vmem, ⟨0, _⟩ => ⟨S1x128x4096, .f32⟩
  | .local _ .vmem, ⟨1, _⟩ => ⟨S1x128x4096, .f32⟩
  | .local _ .vmem, ⟨2, _⟩ => ⟨S64x128, .f32⟩
  | .local _ .vmem, ⟨3, _⟩ => ⟨S64x128, .f32⟩
  | .local _ .vmem, ⟨4, _⟩ => ⟨S64x1, .f32⟩
  | .local _ .vmem, ⟨5, _⟩ => ⟨S1x64x4096, .f32⟩
  | .local _ .vmem, ⟨6, _⟩ => ⟨S1x64x4096, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S_S64 : S_.BroadcastsInDim S64 (![] : Fin 0 → Fin S64.rank)
  shapeCasts_S64_S64x1 : S64.ShapeCasts S64x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  reduces_S64x4096_S4096 : S64x4096.Reduces [0] S4096
  shapeCasts_S4096_S1x4096 : S4096.ShapeCasts S1x4096
  broadcasts_S1x4096_S64x4096 : S1x4096.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  dot_S64x128_S128x4096_S64x4096_1_0_0_1_n_n_wf : DotDims.WF S64x128 S128x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x128x16384.size a
  hwx0_0 : ∀ i : grid0.Coords, EltTy.bits .f32 = 32 ∨ (Rect.block (s := S16x128x16384) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x4096.size a ≤ S16x64x16384.size a
  hwx0_4 : ∀ i : grid0.Coords, EltTy.bits .f32 = 32 ∨ (Rect.block (s := S16x64x16384) S1x64x4096.size (cc0_transform_4 i) (hinb0_4 i)).WholeWords (EltTy.packing .f32)

variable [Facts₀]

def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x16384 : Shape := ⟨3, ![16, 128, 16384]⟩
abbrev S64x128 : Shape := ⟨2, ![64, 128]⟩
abbrev S64 : Shape := ⟨1, ![64]⟩
abbrev S16x16384x128 : Shape := ⟨3, ![16, 16384, 128]⟩
abbrev S_ : Shape := ⟨0, ![]⟩
abbrev S64x1 : Shape := ⟨2, ![64, 1]⟩
abbrev S16x16384x64 : Shape := ⟨3, ![16, 16384, 64]⟩
abbrev S1x1x64 : Shape := ⟨3, ![1, 1, 64]⟩
abbrev S16x16384 : Shape := ⟨2, ![16, 16384]⟩
abbrev S16x16384x1 : Shape := ⟨3, ![16, 16384, 1]⟩
abbrev S16x64x16384 : Shape := ⟨3, ![16, 64, 16384]⟩

abbrev nBuf : Space → Nat
  | .hbm => 59
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S16x16384x128, .f32⟩
  | .hbm, ⟨5, _⟩ => ⟨S64x128, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64, .f32⟩
  | .hbm, ⟨19, _⟩ => ⟨S16x16384x128, .f32⟩
  | .hbm, ⟨20, _⟩ => ⟨S16x16384x64, .f32⟩
  | .hbm, ⟨21, _⟩ => ⟨S64x128, .f32⟩
  | .hbm, ⟨22, _⟩ => ⟨S16x16384x64, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S16x16384x64, .f32⟩
  | .hbm, ⟨29, _⟩ => ⟨S16x16384x64, .f32⟩
  | .hbm, ⟨30, _⟩ => ⟨S16x16384x64, .f32⟩
  | .hbm, ⟨31, _⟩ => ⟨S1x1x64, .f32⟩
  | .hbm, ⟨32, _⟩ => ⟨S16x16384x64, .f32⟩
  | .hbm, ⟨33, _⟩ => ⟨S16x16384x64, .f32⟩
  | .hbm, ⟨34, _⟩ => ⟨S16x16384x64, .f32⟩
  | .hbm, ⟨35, _⟩ => ⟨S1x1x64, .f32⟩
  | .hbm, ⟨36, _⟩ => ⟨S16x16384x64, .f32⟩
  | .hbm, ⟨37, _⟩ => ⟨S16x16384x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x1x64, .f32⟩
  | .hbm, ⟨42, _⟩ => ⟨S16x16384x64, .f32⟩
  | .hbm, ⟨43, _⟩ => ⟨S16x16384x64, .f32⟩
  | .hbm, ⟨44, _⟩ => ⟨S_, .f32⟩
  | .hbm, ⟨45, _⟩ => ⟨S16x16384, .f32⟩
  | .hbm, ⟨46, _⟩ => ⟨S_, .f32⟩
  | .hbm, ⟨47, _⟩ => ⟨S16x16384, .f32⟩
  | .hbm, ⟨48, _⟩ => ⟨S16x16384, .f32⟩
  | .hbm, ⟨49, _⟩ => ⟨S16x16384x1, .f32⟩
  | .hbm, ⟨50, _⟩ => ⟨S16x16384x64, .f32⟩
  | .hbm, ⟨51, _⟩ => ⟨S16x16384x64, .f32⟩
  | .hbm, ⟨52, _⟩ => ⟨S16x16384x64, .f32⟩
  | .hbm, ⟨53, _⟩ => ⟨S_, .f32⟩
  | .hbm, ⟨54, _⟩ => ⟨S16x16384, .f32⟩
  | .hbm, ⟨55, _⟩ => ⟨S16x16384x1, .f32⟩
  | .hbm, ⟨56, _⟩ => ⟨S16x16384x64, .f32⟩
  | .hbm, ⟨57, _⟩ => ⟨S16x16384x64, .f32⟩
  | .hbm, ⟨58, _⟩ => ⟨S16x64x16384, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  transposes_S16x128x16384_S16x16384x128_0_2_1 : S16x128x16384.Transposes [0, 2, 1] S16x16384x128
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S_S16x16384x64 : S_.BroadcastsInDim S16x16384x64 (![] : Fin 0 → Fin S16x16384x64.rank)
  bcast_S64_S1x1x64_2 : S64.BroadcastsInDim S1x1x64 (![2] : Fin 1 → Fin S1x1x64.rank)
  bcast_S1x1x64_S16x16384x64_0_1_2 : S1x1x64.BroadcastsInDim S16x16384x64 (![0, 1, 2] : Fin 3 → Fin S16x16384x64.rank)
  bcast_S_S64 : S_.BroadcastsInDim S64 (![] : Fin 0 → Fin S64.rank)
  reducesTo_S16x16384x64_S16x16384_d2 : S16x16384x64.ReducesTo [2] S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x64_0_1_2 : S16x16384x1.BroadcastsInDim S16x16384x64 (![0, 1, 2] : Fin 3 → Fin S16x16384x64.rank)
  transposes_S16x16384x64_S16x64x16384_0_2_1 : S16x16384x64.Transposes [0, 2, 1] S16x64x16384
  dot_S16x16384x128_S64x128_S16x16384x64_2_1_01_0_n_n_wf : DotDims.WF S16x16384x128 S64x128 S16x16384x64 [2] [1] [0, 1] [0] [] []

variable [Facts₀]

def dot_S16x16384x128_S64x128_S16x16384x64_2_1_01_0_n_n : DotDims S16x16384x128 S64x128 S16x16384x64 where
  lhsContracting := [2]
  rhsContracting := [1]
  lhsNonContracting := [0, 1]
  rhsNonContracting := [0]
  lhsBatch := []
  rhsBatch := []
  wf := dot_S16x16384x128_S64x128_S16x16384x64_2_1_01_0_n_n_wf

class Facts : Prop extends Facts₀ where

variable [Facts]
-- ==== Proof.LibRealVec.lean ====
/-
  Real-valued vectors of extended reals. An extended real is REAL when it is neither infinity; a vector of extended
  reals is ALL REAL when every entry is. The laws that join two programs at the exact values (distributivity, the
  cancellation x - x = 0) hold on real numbers only, so a proof carries "every entry is real" through its chain of
  vector operations. Here:
    - the reals among the extended reals are closed under sum, difference, product, negation, maximum, minimum, finite
      sums, folds of the maximum and minimum, the quotient by a nonzero real, the reciprocal square root of a positive
      real, the square root of a non-negative real, the hyperbolic tangent, the exponential, the logistic and error
      functions, and contain the value of every float pattern whose exponent field is not all ones;
    - each operation on vectors, read at the exact values, keeps a vector all real, under the side condition the
      operation needs (a divisor with no zero entry, positive arguments of the reciprocal square root, a nonempty set
      to take a maximum over): the pointwise operations, the format changes, every re-indexing (broadcasts, shape
      casts, slices, transposes, rotations, gathers, concatenation, padding), constants, sum and maximum / minimum
      reductions over any axes, matrix products;
    - an all-real vector is the coercion of a vector of reals, and each operation applied to coerced real vectors is
      the coercion of the same operation of the reals: the door to doing the algebra in the reals.
-/
import Idealize.ShloMosaic.PureOps.Ideal
import Idealize.ShloMosaic.PureOps.Ideal.Laws

noncomputable section

open scoped BigOperators

namespace Cert.LibRealVec

open Idealize.ShloMosaic

/-! ## Real extended reals -/

/-- An extended real that is a real number. -/
def IsReal (x : EReal) : Prop := ∃ r : ℝ, x = (r : EReal)

/-- The coercion of a real number is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real extended real is not minus infinity. -/
theorem IsReal.ne_bot {x : EReal} (hx : IsReal x) : x ≠ ⊥ := by
  obtain ⟨r, rfl⟩ := hx; exact EReal.coe_ne_bot r

/-- A real extended real is not plus infinity. -/
theorem IsReal.ne_top {x : EReal} (hx : IsReal x) : x ≠ ⊤ := by
  obtain ⟨r, rfl⟩ := hx; exact EReal.coe_ne_top r

/-- An extended real is real exactly when it is neither infinity. -/
theorem isReal_iff {x : EReal} : IsReal x ↔ x ≠ ⊥ ∧ x ≠ ⊤ := by
  constructor
  · intro h; exact ⟨h.ne_bot, h.ne_top⟩
  · rintro ⟨hb, ht⟩; exact ⟨x.toReal, (EReal.coe_toReal ht hb).symm⟩

/-- A real extended real is the coercion of its real part. -/
theorem IsReal.coe_toReal {x : EReal} (hx : IsReal x) : ((x.toReal : ℝ) : EReal) = x :=
  EReal.coe_toReal hx.ne_top hx.ne_bot

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The maximum of two reals is real (it is one of them). -/
theorem IsReal.max {x y : EReal} (hx : IsReal x) (hy : IsReal y) : IsReal (max x y) := by
  rcases le_total x y with h | h
  · rw [max_eq_right h]; exact hy
  · rw [max_eq_left h]; exact hx

/-- The minimum of two reals is real (it is one of them). -/
theorem IsReal.min {x y : EReal} (hx : IsReal x) (hy : IsReal y) : IsReal (min x y) := by
  rcases le_total x y with h | h
  · rw [min_eq_left h]; exact hx
  · rw [min_eq_right h]; exact hy

/-- The absolute value max(x, -x) of a real is real. -/
theorem IsReal.abs {x : EReal} (hx : IsReal x) : IsReal (Max.max x (-x)) := IsReal.max hx hx.neg

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A sum of reals over a finite type is real. -/
theorem IsReal.sum_univ {ι : Type*} [Fintype ι] (f : ι → EReal) (h : ∀ i, IsReal (f i)) : IsReal (∑ i, f i) :=
  IsReal.sum Finset.univ f fun i _ => h i

/-- The quotient of a real by a NONZERO real is real. -/
theorem IsReal.div {x : EReal} (hx : IsReal x) {b : ℝ} (hb : b ≠ 0) : IsReal (Ideal.div x (b : EReal)) := by
  rw [Ideal.div_coe hb]; exact hx.mul (IsReal.coe _)

/-- The quotient of a real by a real that is not zero is real (the divisor given as an extended real). -/
theorem IsReal.div_of_ne_zero {x y : EReal} (hx : IsReal x) (hy : IsReal y) (h0 : y ≠ 0) : IsReal (Ideal.div x y) := by
  obtain ⟨b, rfl⟩ := hy
  exact hx.div fun hb => h0 (by rw [hb]; rfl)

/-- The reciprocal square root of a POSITIVE real is real. -/
theorem IsReal.rsqrt {x : EReal} {r : ℝ} (hx : x = (r : EReal)) (hr : 0 < r) : IsReal (Ideal.rsqrt x) := by
  subst hx
  rw [Ideal.rsqrt_coe, if_neg (not_lt.2 hr.le), if_neg hr.ne']
  exact IsReal.coe _

/-- The square root of a NON-NEGATIVE real is real. -/
theorem IsReal.sqrt {x : EReal} {r : ℝ} (hx : x = (r : EReal)) (hr : 0 ≤ r) : IsReal (Ideal.sqrt x) := by
  subst hx
  rw [Ideal.sqrt_coe, if_neg (not_lt.2 hr)]
  exact IsReal.coe _

/-- The hyperbolic tangent of a real is real. -/
theorem IsReal.tanh {x : EReal} (hx : IsReal x) : IsReal (Ideal.tanh x) := by
  obtain ⟨r, rfl⟩ := hx; exact ⟨Real.tanh r, rfl⟩

/-- The hyperbolic tangent of ANY extended real is real (it is -1 and 1 at the infinities). -/
theorem IsReal.tanh_any (x : EReal) : IsReal (Ideal.tanh x) := by
  induction x using EReal.rec with
  | bot => exact ⟨-1, rfl⟩
  | top => exact ⟨1, rfl⟩
  | coe r => exact ⟨Real.tanh r, rfl⟩

/-- The exponential of a real is real. -/
theorem IsReal.exp {x : EReal} (hx : IsReal x) : IsReal (Ideal.exp x) := by
  obtain ⟨r, rfl⟩ := hx; exact ⟨Real.exp r, rfl⟩

/-- The logistic function of a real is real. -/
theorem IsReal.logistic {x : EReal} (hx : IsReal x) : IsReal (Ideal.logistic x) := by
  obtain ⟨r, rfl⟩ := hx; rw [Ideal.logistic_coe]; exact IsReal.coe _

/-- The error function of a real is real. -/
theorem IsReal.erf {x : EReal} (hx : IsReal x) : IsReal (Ideal.erf x) := by
  obtain ⟨r, rfl⟩ := hx; rw [Ideal.erf_coe]; exact IsReal.coe _

/-- A left fold of the maximum over a list of reals, from a real start, is real. -/
theorem isReal_foldl_max {κ : Type*} (g : κ → EReal) :
    ∀ (l : List κ) (init : EReal), IsReal init → (∀ n ∈ l, IsReal (g n)) →
      IsReal (l.foldl (fun r n => max r (g n)) init)
  | [], _, hi, _ => hi
  | n :: l, init, hi, h => by
    rw [List.foldl_cons]
    exact isReal_foldl_max g l _ (IsReal.max hi (h n (List.mem_cons_self ..)))
      fun m hm => h m (List.mem_cons_of_mem _ hm)

/-- A left fold of the maximum over a NONEMPTY list of reals, from minus infinity, is real. -/
theorem isReal_foldl_max_bot {κ : Type*} (g : κ → EReal) (l : List κ) (hl : l ≠ []) (h : ∀ n ∈ l, IsReal (g n)) :
    IsReal (l.foldl (fun r n => max r (g n)) ⊥) := by
  cases l with
  | nil => exact absurd rfl hl
  | cons n l =>
    rw [List.foldl_cons, max_eq_right bot_le]
    exact isReal_foldl_max g l _ (h n (List.mem_cons_self ..)) fun m hm => h m (List.mem_cons_of_mem _ hm)

/-- A left fold of the minimum over a list of reals, from a real start, is real. -/
theorem isReal_foldl_min {κ : Type*} (g : κ → EReal) :
    ∀ (l : List κ) (init : EReal), IsReal init → (∀ n ∈ l, IsReal (g n)) →
      IsReal (l.foldl (fun r n => min r (g n)) init)
  | [], _, hi, _ => hi
  | n :: l, init, hi, h => by
    rw [List.foldl_cons]
    exact isReal_foldl_min g l _ (IsReal.min hi (h n (List.mem_cons_self ..)))
      fun m hm => h m (List.mem_cons_of_mem _ hm)

/-- A left fold of the minimum over a NONEMPTY list of reals, from plus infinity, is real. -/
theorem isReal_foldl_min_top {κ : Type*} (g : κ → EReal) (l : List κ) (hl : l ≠ []) (h : ∀ n ∈ l, IsReal (g n)) :
    IsReal (l.foldl (fun r n => min r (g n)) ⊤) := by
  cases l with
  | nil => exact absurd rfl hl
  | cons n l =>
    rw [List.foldl_cons, min_eq_right le_top]
    exact isReal_foldl_min g l _ (h n (List.mem_cons_self ..)) fun m hm => h m (List.mem_cons_of_mem _ hm)

/-! ### Bit patterns with a finite exponent field -/

/-- A sign / exponent / significand pattern whose exponent field is not all ones denotes a real number (a zero, a
    subnormal or a normal number). -/
theorem isReal_ieee (e m : Nat) {w : Nat} (b : BitVec w) (h : (b.extractLsb' m e).toNat ≠ 2 ^ e - 1) :
    IsReal (Ideal.ieee e m b) := by
  unfold Ideal.ieee
  simp only [if_neg h]
  split <;> exact IsReal.coe _

/-- A 32-bit float pattern whose exponent field is not all ones denotes a real number. -/
theorem isReal_ofBits_f32 (b : BitVec 32) (h : (b.extractLsb' 23 8).toNat ≠ 255) : IsReal (Ideal.ofBits .f32 b) :=
  isReal_ieee 8 23 b h

/-- A bfloat16 pattern whose exponent field is not all ones denotes a real number. -/
theorem isReal_ofBits_bf16 (b : BitVec 16) (h : (b.extractLsb' 7 8).toNat ≠ 255) : IsReal (Ideal.ofBits .bf16 b) :=
  isReal_ieee 8 7 b h

/-- A 16-bit float pattern whose exponent field is not all ones denotes a real number. -/
theorem isReal_ofBits_f16 (b : BitVec 16) (h : (b.extractLsb' 10 5).toNat ≠ 31) : IsReal (Ideal.ofBits .f16 b) :=
  isReal_ieee 5 10 b h

/-! ## The operations of the extended reals on coerced reals -/

/-- The coercion of a finite sum of reals is the sum of the coercions. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum {ι : Type*} [Fintype ι] (f : ι → ℝ) : ((∑ i, f i : ℝ) : EReal) = ∑ i, ((f i : ℝ) : EReal) :=
  coe_finset_sum Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) : Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) : Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) : Ideal.sqrt ((r : ℝ) : EReal) = ((Real.sqrt r : ℝ) : EReal) := by
  rw [Ideal.sqrt_coe, if_neg (not_lt.2 hr)]

/-! ## All-real vectors -/

/-- A family of extended reals every entry of which is a real number. A float vector at the exact values is such a
    family over its shape's indices, whatever its format. -/
def AllReal {ι : Type*} (v : ι → EReal) : Prop := ∀ i, IsReal (v i)

/-- An all-real vector is the coercion of a vector of reals: the door to doing the algebra in the reals. -/
theorem AllReal.lift {ι : Type*} {v : ι → EReal} (hv : AllReal v) : ∃ r : ι → ℝ, v = fun i => ((r i : ℝ) : EReal) :=
  ⟨fun i => (v i).toReal, funext fun i => ((hv i).coe_toReal).symm⟩

/-- The coercion of a vector of reals is all real. -/
theorem AllReal.coe {ι : Type*} (r : ι → ℝ) : AllReal fun i => ((r i : ℝ) : EReal) := fun i => IsReal.coe (r i)

/-- A vector is all real exactly when it is the coercion of a vector of reals. -/
theorem allReal_iff_exists {ι : Type*} {v : ι → EReal} : AllReal v ↔ ∃ r : ι → ℝ, v = fun i => ((r i : ℝ) : EReal) :=
  ⟨AllReal.lift, by rintro ⟨r, rfl⟩; exact AllReal.coe r⟩

/-- An all-real vector is the coercion of its entries' real parts. -/
theorem AllReal.eq_coe_toReal {ι : Type*} {v : ι → EReal} (hv : AllReal v) :
    v = fun i => (((v i).toReal : ℝ) : EReal) :=
  funext fun i => ((hv i).coe_toReal).symm

/-- Each entry of an all-real vector is the coercion of its real part. -/
theorem AllReal.apply_eq_coe_toReal {ι : Type*} {v : ι → EReal} (hv : AllReal v) (i : ι) :
    v i = (((v i).toReal : ℝ) : EReal) :=
  ((hv i).coe_toReal).symm

/-- A constant vector of a real value is all real. -/
theorem AllReal.const {ι : Type*} {x : EReal} (hx : IsReal x) : AllReal fun _ : ι => x := fun _ => hx

/-! ### Re-indexing -/

/-- Any re-indexing of an all-real vector is all real. -/
theorem AllReal.reindex {ι κ : Type*} {v : ι → EReal} (hv : AllReal v) (f : κ → ι) : AllReal fun j => v (f j) :=
  fun j => hv (f j)

/-- A vector each entry of which is an entry of an all-real vector is all real. -/
theorem AllReal.of_reindex {ι κ : Type*} {v : ι → EReal} {w : κ → EReal} (f : κ → ι) (h : ∀ j, w j = v (f j))
    (hv : AllReal v) : AllReal w :=
  fun j => by rw [h j]; exact hv (f j)

/-- The same, the source index given entry by entry. -/
theorem AllReal.of_forall_exists {ι κ : Type*} {v : ι → EReal} {w : κ → EReal} (h : ∀ j, ∃ i, w j = v i)
    (hv : AllReal v) : AllReal w :=
  fun j => by obtain ⟨i, hi⟩ := h j; rw [hi]; exact hv i

/-- Two pointwise equal vectors are all real together. -/
theorem AllReal.congr {ι : Type*} {v w : ι → EReal} (h : ∀ i, w i = v i) (hv : AllReal v) : AllReal w :=
  fun i => by rw [h i]; exact hv i

/-! ### Pointwise operations -/

/-- A pointwise unary operation that keeps reals real keeps a vector all real. -/
theorem AllReal.map {ι : Type*} {v : ι → EReal} (g : EReal → EReal) (hg : ∀ x, IsReal x → IsReal (g x))
    (hv : AllReal v) : AllReal fun i => g (v i) :=
  fun i => hg _ (hv i)

/-- A pointwise binary operation that keeps reals real keeps vectors all real. -/
theorem AllReal.map₂ {ι : Type*} {v w : ι → EReal} (g : EReal → EReal → EReal)
    (hg : ∀ x y, IsReal x → IsReal y → IsReal (g x y)) (hv : AllReal v) (hw : AllReal w) :
    AllReal fun i => g (v i) (w i) :=
  fun i => hg _ _ (hv i) (hw i)

section Vectors
variable {s t : Shape} {φ : FTy}

/-- The pointwise sum of two all-real vectors is all real. -/
theorem AllReal.addf {x y : FVec Ideal s φ} (hx : AllReal x) (hy : AllReal y) :
    AllReal (Idealize.ShloMosaic.addf x y) :=
  fun i => (hx i).add (hy i)

/-- The pointwise difference of two all-real vectors is all real. -/
theorem AllReal.subf {x y : FVec Ideal s φ} (hx : AllReal x) (hy : AllReal y) :
    AllReal (Idealize.ShloMosaic.subf x y) :=
  fun i => (hx i).sub (hy i)

/-- The pointwise product of two all-real vectors is all real. -/
theorem AllReal.mulf {x y : FVec Ideal s φ} (hx : AllReal x) (hy : AllReal y) :
    AllReal (Idealize.ShloMosaic.mulf x y) :=
  fun i => (hx i).mul (hy i)

/-- The pointwise maximum of two all-real vectors is all real. -/
theorem AllReal.maximumf {x y : FVec Ideal s φ} (hx : AllReal x) (hy : AllReal y) :
    AllReal (Idealize.ShloMosaic.maximumf x y) :=
  fun i => IsReal.max (hx i) (hy i)

/-- The pointwise minimum of two all-real vectors is all real. -/
theorem AllReal.minimumf {x y : FVec Ideal s φ} (hx : AllReal x) (hy : AllReal y) :
    AllReal (Idealize.ShloMosaic.minimumf x y) :=
  fun i => IsReal.min (hx i) (hy i)

/-- The pointwise negation of an all-real vector is all real. -/
theorem AllReal.negf {x : FVec Ideal s φ} (hx : AllReal x) : AllReal (Idealize.ShloMosaic.negf x) :=
  fun i => (hx i).neg

/-- The pointwise absolute value of an all-real vector is all real. -/
theorem AllReal.absf {x : FVec Ideal s φ} (hx : AllReal x) : AllReal (Idealize.ShloMosaic.absf x) :=
  fun i => (hx i).abs

/-- Widening the format is the identity at the exact values: it keeps a vector all real. -/
theorem AllReal.extf {x : FVec Ideal s φ} (hx : AllReal x) (ψ : FTy) (h : φ.bits < ψ.bits) :
    AllReal (Idealize.ShloMosaic.extf ψ x h) :=
  fun i => hx i

/-- Narrowing the format is the identity at the exact values: it keeps a vector all real. -/
theorem AllReal.truncf {x : FVec Ideal s φ} (hx : AllReal x) (ψ : FTy) (h : ψ.bits < φ.bits) :
    AllReal (Idealize.ShloMosaic.truncf ψ x h) :=
  fun i => hx i

/-- The pointwise hyperbolic tangent of an all-real vector is all real. -/
theorem AllReal.tanh {x : FVec Ideal s φ} (hx : AllReal x) : AllReal (Idealize.ShloMosaic.tanh x) :=
  fun i => (hx i).tanh

/-- The pointwise hyperbolic tangent of ANY vector is all real. -/
theorem AllReal.tanh_any (x : FVec Ideal s φ) : AllReal (Idealize.ShloMosaic.tanh x) :=
  fun i => IsReal.tanh_any (x i)

/-- The pointwise exponential of an all-real vector is all real. -/
theorem AllReal.exp {x : FVec Ideal s φ} (hx : AllReal x) : AllReal (Idealize.ShloMosaic.exp x) :=
  fun i => (hx i).exp

/-- The pointwise logistic function of an all-real vector is all real. -/
theorem AllReal.logistic {x : FVec Ideal s φ} (hx : AllReal x) : AllReal (Idealize.ShloMosaic.logistic x) :=
  fun i => (hx i).logistic

/-- The pointwise error function of an all-real vector is all real. -/
theorem AllReal.erf {x : FVec Ideal s φ} (hx : AllReal x) : AllReal (Idealize.ShloMosaic.erf x) :=
  fun i => (hx i).erf

/-- The pointwise reciprocal square root of a vector every entry of which is a POSITIVE real is all real. -/
theorem AllReal.rsqrt {x : FVec Ideal s φ} (hx : ∀ i, ∃ r : ℝ, x i = (r : EReal) ∧ 0 < r) :
    AllReal (Idealize.ShloMosaic.rsqrt x) :=
  fun i => by obtain ⟨r, hr, hpos⟩ := hx i; exact IsReal.rsqrt hr hpos

/-- The same, the hypothesis split: the vector is all real and every entry is positive. -/
theorem AllReal.rsqrt_of_pos {x : FVec Ideal s φ} (hx : AllReal x) (hpos : ∀ i, 0 < x i) :
    AllReal (Idealize.ShloMosaic.rsqrt x) :=
  AllReal.rsqrt fun i => by
    obtain ⟨r, hr⟩ := hx i
    exact ⟨r, hr, by have := hpos i; rw [hr] at this; exact_mod_cast this⟩

/-- The pointwise square root of a vector every entry of which is a NON-NEGATIVE real is all real. -/
theorem AllReal.sqrt {x : FVec Ideal s φ} (hx : ∀ i, ∃ r : ℝ, x i = (r : EReal) ∧ 0 ≤ r) :
    AllReal (Idealize.ShloMosaic.sqrt x) :=
  fun i => by obtain ⟨r, hr, hnn⟩ := hx i; exact IsReal.sqrt hr hnn

/-- The pointwise quotient of an all-real vector by a vector all of whose entries are ONE nonzero real is all real. -/
theorem AllReal.divf_const {x y : FVec Ideal s φ} (hx : AllReal x) {b : ℝ} (hb : b ≠ 0) (hy : ∀ i, y i = (b : EReal)) :
    AllReal (Idealize.ShloMosaic.divf x y) :=
  fun i => by
    show IsReal (Ideal.div (x i) (y i))
    rw [hy i]; exact (hx i).div hb

/-- The pointwise quotient of an all-real vector by an all-real vector with no zero entry is all real. -/
theorem AllReal.divf {x y : FVec Ideal s φ} (hx : AllReal x) (hy : AllReal y) (h0 : ∀ i, y i ≠ 0) :
    AllReal (Idealize.ShloMosaic.divf x y) :=
  fun i => (hx i).div_of_ne_zero (hy i) (h0 i)

/-- Choosing entry by entry between two all-real vectors gives an all-real vector. -/
theorem AllReal.select {c : IVec s 1} {a b : s.Idx → EReal} (ha : AllReal a) (hb : AllReal b) :
    AllReal (Idealize.ShloMosaic.select c a b) :=
  fun i => by
    show IsReal (if c i = 1#1 then a i else b i)
    split
    · exact ha i
    · exact hb i

/-- The pointwise quotient of an all-real vector by the splat of one nonzero real is all real. -/
theorem AllReal.divf_broadcast {x : FVec Ideal s φ} (hx : AllReal x) {c : Ideal φ} {b : ℝ} (hc : c = (b : EReal))
    (hb : b ≠ 0) : AllReal (Idealize.ShloMosaic.divf x (Idealize.ShloMosaic.broadcast s c)) :=
  hx.divf_const hb fun _ => hc

/-- The value of a signed integer vector is all real. -/
theorem AllReal.sitofp {w : Nat} (φ : FTy) (x : IVec s w) : AllReal (Idealize.ShloMosaic.sitofp (F := Ideal) φ x) :=
  fun i => ⟨((x i).toInt : ℝ), rfl⟩

/-- The value of an unsigned integer vector is all real. -/
theorem AllReal.uitofp {w : Nat} (φ : FTy) (x : IVec s w) : AllReal (Idealize.ShloMosaic.uitofp (F := Ideal) φ x) :=
  fun i => ⟨((x i).toNat : ℝ), rfl⟩

/-! ### The host program's pointwise operations: the same functions at the exact values -/

/-- The host's pointwise negation of an all-real vector is all real. -/
theorem AllReal.host_negf {x : FVec Ideal s φ} (hx : AllReal x) : AllReal (Idealize.ShloMosaic.Host.negf x) :=
  fun i => (hx i).neg

/-- The host's pointwise absolute value of an all-real vector is all real. -/
theorem AllReal.host_absf {x : FVec Ideal s φ} (hx : AllReal x) : AllReal (Idealize.ShloMosaic.Host.absf x) :=
  fun i => (hx i).abs

/-- The host's pointwise quotient of an all-real vector by an all-real vector with no zero entry is all real. -/
theorem AllReal.host_divf {x y : FVec Ideal s φ} (hx : AllReal x) (hy : AllReal y) (h0 : ∀ i, y i ≠ 0) :
    AllReal (Idealize.ShloMosaic.Host.divf x y) :=
  fun i => (hx i).div_of_ne_zero (hy i) (h0 i)

/-- The host's pointwise quotient of an all-real vector by a vector all of whose entries are one nonzero real is all
    real. -/
theorem AllReal.host_divf_const {x y : FVec Ideal s φ} (hx : AllReal x) {b : ℝ} (hb : b ≠ 0)
    (hy : ∀ i, y i = (b : EReal)) : AllReal (Idealize.ShloMosaic.Host.divf x y) :=
  fun i => by
    show IsReal (Ideal.div (x i) (y i))
    rw [hy i]; exact (hx i).div hb

/-- The host's pointwise hyperbolic tangent of an all-real vector is all real. -/
theorem AllReal.host_tanh {x : FVec Ideal s φ} (hx : AllReal x) : AllReal (Idealize.ShloMosaic.Host.tanh x) :=
  fun i => (hx i).tanh

/-- The host's pointwise exponential of an all-real vector is all real. -/
theorem AllReal.host_exp {x : FVec Ideal s φ} (hx : AllReal x) : AllReal (Idealize.ShloMosaic.Host.exp x) :=
  fun i => (hx i).exp

/-- The host's pointwise logistic function of an all-real vector is all real. -/
theorem AllReal.host_logistic {x : FVec Ideal s φ} (hx : AllReal x) : AllReal (Idealize.ShloMosaic.Host.logistic x) :=
  fun i => (hx i).logistic

/-- The host's pointwise error function of an all-real vector is all real. -/
theorem AllReal.host_erf {x : FVec Ideal s φ} (hx : AllReal x) : AllReal (Idealize.ShloMosaic.Host.erf x) :=
  fun i => (hx i).erf

/-- The host's pointwise reciprocal square root of a vector every entry of which is a positive real is all real. -/
theorem AllReal.host_rsqrt {x : FVec Ideal s φ} (hx : ∀ i, ∃ r : ℝ, x i = (r : EReal) ∧ 0 < r) :
    AllReal (Idealize.ShloMosaic.Host.rsqrt x) :=
  fun i => by obtain ⟨r, hr, hpos⟩ := hx i; exact IsReal.rsqrt hr hpos

/-- The host's pointwise square root of a vector every entry of which is a non-negative real is all real. -/
theorem AllReal.host_sqrt {x : FVec Ideal s φ} (hx : ∀ i, ∃ r : ℝ, x i = (r : EReal) ∧ 0 ≤ r) :
    AllReal (Idealize.ShloMosaic.Host.sqrt x) :=
  fun i => by obtain ⟨r, hr, hnn⟩ := hx i; exact IsReal.sqrt hr hnn

/-! ### Constants -/

/-- The splat of a bit pattern whose exact value is real is all real. -/
theorem AllReal.constant (s : Shape) (φ : FTy) (b : BitVec φ.bits) (hb : IsReal (Ideal.ofBits φ b)) :
    AllReal (Idealize.ShloMosaic.constant (F := Ideal) s φ b) :=
  fun _ => hb

/-- The splat of the all-zero f32 pattern is all real: its value is zero. -/
theorem AllReal.constant_zero_f32 (s : Shape) : AllReal (Idealize.ShloMosaic.constant (F := Ideal) s .f32 0x00000000#32) :=
  fun _ => by
    show IsReal (Ideal.ofBits .f32 0x00000000#32)
    rw [Ideal.ofBits_zero_f32]; exact IsReal.zero

/-- The splat of a 32-bit float pattern whose exponent field is not all ones is all real. -/
theorem AllReal.constant_f32 (s : Shape) (b : BitVec 32) (h : (b.extractLsb' 23 8).toNat ≠ 255) :
    AllReal (Idealize.ShloMosaic.constant (F := Ideal) s .f32 b) :=
  AllReal.constant s .f32 b (isReal_ofBits_f32 b h)

/-- The splat of a bfloat16 pattern whose exponent field is not all ones is all real. -/
theorem AllReal.constant_bf16 (s : Shape) (b : BitVec 16) (h : (b.extractLsb' 7 8).toNat ≠ 255) :
    AllReal (Idealize.ShloMosaic.constant (F := Ideal) s .bf16 b) :=
  AllReal.constant s .bf16 b (isReal_ofBits_bf16 b h)

/-! ### The shape operations: each reads its operand at a re-computed index -/

/-- The splat of one real value over a shape is all real. -/
theorem AllReal.broadcast (t : Shape) {x : EReal} (hx : IsReal x) : AllReal (Idealize.ShloMosaic.broadcast t x) :=
  fun _ => hx

/-- Broadcasting an all-real vector to a larger shape gives an all-real vector. -/
theorem AllReal.broadcastTo {x : s.Idx → EReal} (hx : AllReal x) (t : Shape) (h : s.Broadcasts t) :
    AllReal (Idealize.ShloMosaic.broadcastTo t x h) :=
  fun _ => hx _

/-- Broadcasting an all-real vector along named result axes gives an all-real vector. -/
theorem AllReal.broadcastInDim {x : s.Idx → EReal} (hx : AllReal x) (t : Shape) (dims : Fin s.rank → Fin t.rank)
    (h : s.BroadcastsInDim t dims) : AllReal (Idealize.ShloMosaic.broadcastInDim t dims h x) :=
  fun _ => hx _

/-- Reading an all-real vector under another shape (same elements, row-major) gives an all-real vector. -/
theorem AllReal.shapeCast {x : s.Idx → EReal} (hx : AllReal x) (t : Shape) (h : s.ShapeCasts t) :
    AllReal (Idealize.ShloMosaic.shapeCast t x h) :=
  fun _ => hx _

/-- A block of an all-real vector is all real. -/
theorem AllReal.extractStridedSlice {x : s.Idx → EReal} (hx : AllReal x) (t : Shape) (off : Fin s.rank → Nat)
    (h : s.Slices off t) : AllReal (Idealize.ShloMosaic.extractStridedSlice t off x h) :=
  fun _ => hx _

/-- A transpose of an all-real vector is all real. -/
theorem AllReal.transpose {x : s.Idx → EReal} (hx : AllReal x) (t : Shape) (perm : List (Fin s.rank))
    (h : s.Transposes perm t) : AllReal (Idealize.ShloMosaic.transpose t perm x h) :=
  fun _ => hx _

/-- A strided slice of an all-real vector is all real. -/
theorem AllReal.host_slice {x : s.Idx → EReal} (hx : AllReal x) (t : Shape) (start strides : Fin s.rank → Nat)
    (h : s.SlicesBy start strides t) : AllReal (Idealize.ShloMosaic.Host.slice t start strides x h) :=
  fun _ => hx _

/-- A reversal of an all-real vector along some axes is all real. -/
theorem AllReal.host_reverse {x : s.Idx → EReal} (hx : AllReal x) (axes : List (Fin s.rank)) :
    AllReal (Idealize.ShloMosaic.Host.reverse axes x) :=
  fun _ => hx _

/-- Padding an all-real vector with an all-real padding value gives an all-real vector. -/
theorem AllReal.pad {u : Shape} {x : s.Idx → EReal} (hx : AllReal x) {v : u.Idx → EReal} (hv : AllReal v) (t : Shape)
    (lo hi interior : Fin s.rank → Nat) (h : s.Pads lo hi interior t) (hu : 0 < u.numel) :
    AllReal (Idealize.ShloMosaic.pad t lo hi interior x v h hu) :=
  fun j => by
    unfold Idealize.ShloMosaic.pad
    split
    · exact hx _
    · exact hv _

/-- Overwriting a block of an all-real vector by an all-real vector gives an all-real vector. -/
theorem AllReal.updateSlice {u : Shape} {x : s.Idx → EReal} (hx : AllReal x) {upd : u.Idx → EReal} (hupd : AllReal upd)
    (start : Fin s.rank → Nat) (h : s.Slices start u) : AllReal (Idealize.ShloMosaic.updateSlice x upd start h) :=
  fun i => by
    unfold Idealize.ShloMosaic.updateSlice
    split
    · exact hupd _
    · exact hx _

/-- The rows of one parity of an all-real vector are all real. -/
theorem AllReal.rowsOfParity {x : s.Idx → EReal} (hx : AllReal x) (p : Fin 2) (t : Shape) (h : s.Bitcasts 16 t 32) :
    AllReal (Idealize.ShloMosaic.rowsOfParity p t x h) :=
  fun _ => hx _

/-- Two all-real vectors interleaved by rows are all real. -/
theorem AllReal.interleaveRows {lo hi : t.Idx → EReal} (hlo : AllReal lo) (hhi : AllReal hi) (s : Shape)
    (h : s.Bitcasts 16 t 32) : AllReal (Idealize.ShloMosaic.interleaveRows s lo hi h) :=
  fun i => by
    unfold Idealize.ShloMosaic.interleaveRows
    split
    · exact hlo _
    · exact hhi _

/-- A block of an all-real vector at a run-time offset is all real. -/
theorem AllReal.host_dynamicSlice {x : s.Idx → EReal} (hx : AllReal x) (t : Shape) (start : Fin s.rank → Int)
    (h : s.Slices (fun _ => 0) t) : AllReal (Idealize.ShloMosaic.Host.dynamicSlice t x start h) :=
  fun _ => hx _

/-- A gather from an all-real vector is all real. -/
theorem AllReal.host_gather {si : Shape} {w : Nat} (d : GatherDims s si t) {x : s.Idx → EReal} (hx : AllReal x)
    (idx : IVec si w) : AllReal (Idealize.ShloMosaic.Host.gather d x idx) :=
  fun _ => hx _

/-- A rotation of an all-real vector along an axis is all real. -/
theorem AllReal.dynamicRotate {x : s.Idx → EReal} (hx : AllReal x) (a : Fin s.rank) (n : BitVec 32)
    (stride : Option (Nat × Fin s.rank)) (h : s.Rotates a stride) :
    AllReal (Idealize.ShloMosaic.dynamicRotate a n stride x h) :=
  fun _ => hx _

/-- A concatenation of all-real vectors along an axis is all real: each entry is an entry of one piece. -/
theorem AllReal.concatenate (t : Shape) (a : Fin t.rank) (xs : List ((s : Shape) × (s.Idx → EReal)))
    (h : Shape.Concatenates (xs.map (·.1)) t a) (hxs : ∀ p ∈ xs, AllReal p.2) :
    AllReal (Idealize.ShloMosaic.concatenate t a xs h) := by
  intro j
  unfold Idealize.ShloMosaic.concatenate
  exact hxs _ (List.getElem_mem _) _

/-- The same, the pieces' hypotheses given as one conjunction in the order of the list. -/
theorem AllReal.concatenate_forall (t : Shape) (a : Fin t.rank) (xs : List ((s : Shape) × (s.Idx → EReal)))
    (h : Shape.Concatenates (xs.map (·.1)) t a) (hxs : List.Forall (fun p => AllReal p.2) xs) :
    AllReal (Idealize.ShloMosaic.concatenate t a xs h) :=
  AllReal.concatenate t a xs h (List.forall_iff_forall_mem.1 hxs)

/-! ### Sums: reductions and matrix products -/

/-- A sum-reduction of an all-real vector over any set of axes is all real: each entry is a finite sum of entries. -/
theorem AllReal.reduceAdd {axes : List (Fin s.rank)} {x : s.Idx → EReal} (hx : AllReal x) (h : s.Reduces axes t) :
    AllReal (Ideal.reduceAdd h x) :=
  fun _ => IsReal.sum _ _ fun i _ => hx i

/-- A sum multi-reduction of an all-real vector over any set of axes is all real. -/
theorem AllReal.multiReduction_add {axes : List (Fin s.rank)} {src : FVec Ideal s φ} (hsrc : AllReal src)
    (t : Shape) (acc : BitVec φ.bits) (h : s.Reduces axes t) (hφ : FKind.Formats φ) (hacc : acc = FKind.add.neutral φ hφ) :
    AllReal (Idealize.ShloMosaic.multiReduction (F := Ideal) .add axes t src acc h hφ hacc) :=
  fun j => AllReal.reduceAdd hsrc h j

/-- The host's sum-reduction of an all-real vector from a real initial value is all real. -/
theorem AllReal.hostReduceAdd {axes : List (Fin s.rank)} {x : s.Idx → EReal} (hx : AllReal x) (h : s.ReducesTo axes t)
    {init : EReal} (hinit : IsReal init) : AllReal (Ideal.hostReduceAdd h x init) :=
  fun _ => hinit.add (IsReal.sum _ _ fun i _ => hx i)

/-- A matrix product with accumulator — the accumulator plus the sum over the contraction of the products — of all-real
    operands and an all-real accumulator is all real. -/
theorem AllReal.ideal_matmul {sl sr so : Shape} (d : DotDims sl sr so) {lhs : sl.Idx → EReal} {rhs : sr.Idx → EReal}
    {acc : so.Idx → EReal} (hl : AllReal lhs) (hr : AllReal rhs) (ha : AllReal acc) :
    AllReal (Ideal.matmul d lhs rhs acc) :=
  fun j => (ha j).add (IsReal.sum _ _ fun k _ => (hl _).mul (hr _))

/-- The matrix product operation of all-real operands and an all-real accumulator is all real. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (Idealize.ShloMosaic.matmul d prec lhs rhs acc) :=
  AllReal.ideal_matmul d hl hr ha

/-- The matrix product of all-real operands into the zero accumulator is all real. -/
theorem AllReal.matmul_constant_zero {sl sr so : Shape} {φ₁ φ₂ : FTy} (d : DotDims sl sr so)
    (prec : Option ContractPrecision) {lhs : FVec Ideal sl φ₁} {rhs : FVec Ideal sr φ₂}
    (hl : AllReal lhs) (hr : AllReal rhs) :
    AllReal (Idealize.ShloMosaic.matmul d prec lhs rhs (Idealize.ShloMosaic.constant so .f32 0x00000000#32)) :=
  AllReal.matmul d prec hl hr (AllReal.constant_zero_f32 so)

/-- The matrix unit's pass — the sum over the contraction of the products, no accumulator — of all-real operands
    is all real. -/
theorem AllReal.mxuPass {sl sr so : Shape} (d : DotDims sl sr so) {lhs : sl.Idx → EReal} {rhs : sr.Idx → EReal}
    (hl : AllReal lhs) (hr : AllReal rhs) : AllReal (Ideal.mxuPass d lhs rhs) :=
  fun _ => IsReal.sum _ _ fun k _ => (hl _).mul (hr _)

/-- The host's general dot product of all-real operands is all real, at any schedule key. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (Idealize.ShloMosaic.Host.dotGeneralAt sched d prec lhs rhs) :=
  AllReal.ideal_matmul d hl hr (AllReal.const IsReal.zero)

/-- The host's general dot product of all-real operands is all real (one device's schedule). -/
theorem AllReal.host_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Idealize.ShloMosaic.Host.dotGeneral d prec lhs rhs) :=
  AllReal.ideal_matmul d hl hr (AllReal.const IsReal.zero)

/-- The host's sum-reduction of an all-real vector from an all-real initial value is all real. -/
theorem AllReal.host_reduceAdd {axes : List (Fin s.rank)} {u : Shape} {x : FVec Ideal s φ} (hx : AllReal x)
    {init : u.Idx → Ideal φ} (hinit : AllReal init) (h : s.ReducesTo axes t) (hu : 0 < u.numel) :
    AllReal (Idealize.ShloMosaic.Host.reduceAdd x init h hu) :=
  AllReal.hostReduceAdd hx h (hinit _)

/-- The host's sum-reduction at a schedule key, of an all-real vector from an all-real initial value, is all real. -/
theorem AllReal.host_reduceAddAt (sched : HostSchedule) {axes : List (Fin s.rank)} {u : Shape} {x : FVec Ideal s φ}
    (hx : AllReal x) {init : u.Idx → Ideal φ} (hinit : AllReal init) (h : s.ReducesTo axes t) (hu : 0 < u.numel) :
    AllReal (Idealize.ShloMosaic.Host.reduceAddAt sched x init h hu) :=
  AllReal.hostReduceAdd hx h (hinit _)

/-! ### Maxima and minima: reductions as folds -/

/-- The exact value of the maximum-reduction's start pattern (minus infinity's bits) is minus infinity. -/
theorem ofBits_maximumf_neutral (hφ : FKind.Formats φ) : Ideal.ofBits φ (FKind.maximumf.neutral φ hφ) = ⊥ := by
  rcases hφ with rfl | rfl <;> simp [FKind.neutral, Ideal.ofBits, Ideal.ieee]

/-- The exact value of the minimum-reduction's start pattern (plus infinity's bits) is plus infinity. -/
theorem ofBits_minimumf_neutral (hφ : FKind.Formats φ) : Ideal.ofBits φ (FKind.minimumf.neutral φ hφ) = ⊤ := by
  rcases hφ with rfl | rfl <;> simp [FKind.neutral, Ideal.ofBits, Ideal.ieee]

/-- The list of positions reducing to an index is nonempty as soon as some index reduces to it. -/
theorem reduces_filter_ne_nil {axes : List (Fin s.rank)} (h : s.Reduces axes t) {j : t.Idx} {i : s.Idx}
    (hi : h.drop i = j) :
    ((List.finRange s.numel).filter fun n => h.drop (s.rowMajor.symm n) = j) ≠ [] := by
  refine List.ne_nil_of_mem (a := s.rowMajor i) (List.mem_filter.2 ⟨List.mem_finRange _, ?_⟩)
  simp [hi]

/-- A maximum-reduction, from a real start, of an all-real vector over any set of axes is all real. -/
theorem AllReal.reduceFold_max {axes : List (Fin s.rank)} {x : s.Idx → EReal} (hx : AllReal x) (h : s.Reduces axes t)
    {init : EReal} (hinit : IsReal init) : AllReal (reduceFold h max init x) :=
  fun _ => isReal_foldl_max (fun n => x (s.rowMajor.symm n)) _ init hinit fun n _ => hx _

/-- A maximum-reduction, from minus infinity, of an all-real vector is all real when every result index has a source
    index reducing to it (a maximum over a nonempty set). -/
theorem AllReal.reduceFold_max_bot {axes : List (Fin s.rank)} {x : s.Idx → EReal} (hx : AllReal x) (h : s.Reduces axes t)
    (hne : ∀ j, ∃ i, h.drop i = j) : AllReal (reduceFold h max ⊥ x) :=
  fun j => by
    obtain ⟨i, hi⟩ := hne j
    exact isReal_foldl_max_bot (fun n => x (s.rowMajor.symm n)) _ (reduces_filter_ne_nil h hi) fun n _ => hx _

/-- A minimum-reduction, from a real start, of an all-real vector over any set of axes is all real. -/
theorem AllReal.reduceFold_min {axes : List (Fin s.rank)} {x : s.Idx → EReal} (hx : AllReal x) (h : s.Reduces axes t)
    {init : EReal} (hinit : IsReal init) : AllReal (reduceFold h min init x) :=
  fun _ => isReal_foldl_min (fun n => x (s.rowMajor.symm n)) _ init hinit fun n _ => hx _

/-- A minimum-reduction, from plus infinity, of an all-real vector is all real when every result index has a source
    index reducing to it (a minimum over a nonempty set). -/
theorem AllReal.reduceFold_min_top {axes : List (Fin s.rank)} {x : s.Idx → EReal} (hx : AllReal x) (h : s.Reduces axes t)
    (hne : ∀ j, ∃ i, h.drop i = j) : AllReal (reduceFold h min ⊤ x) :=
  fun j => by
    obtain ⟨i, hi⟩ := hne j
    exact isReal_foldl_min_top (fun n => x (s.rowMajor.symm n)) _ (reduces_filter_ne_nil h hi) fun n _ => hx _

/-- A maximum multi-reduction of an all-real vector over any set of axes is all real when every result index has a
    source index reducing to it. -/
theorem AllReal.multiReduction_maximumf {axes : List (Fin s.rank)} {src : FVec Ideal s φ} (hsrc : AllReal src)
    (t : Shape) (acc : BitVec φ.bits) (h : s.Reduces axes t) (hφ : FKind.Formats φ)
    (hacc : acc = FKind.maximumf.neutral φ hφ) (hne : ∀ j, ∃ i, h.drop i = j) :
    AllReal (Idealize.ShloMosaic.multiReduction (F := Ideal) .maximumf axes t src acc h hφ hacc) := by
  subst hacc
  show AllReal (reduceFold h max (Ideal.ofBits φ (FKind.maximumf.neutral φ hφ)) src)
  rw [ofBits_maximumf_neutral]
  exact AllReal.reduceFold_max_bot hsrc h hne

/-- A minimum multi-reduction of an all-real vector over any set of axes is all real when every result index has a
    source index reducing to it. -/
theorem AllReal.multiReduction_minimumf {axes : List (Fin s.rank)} {src : FVec Ideal s φ} (hsrc : AllReal src)
    (t : Shape) (acc : BitVec φ.bits) (h : s.Reduces axes t) (hφ : FKind.Formats φ)
    (hacc : acc = FKind.minimumf.neutral φ hφ) (hne : ∀ j, ∃ i, h.drop i = j) :
    AllReal (Idealize.ShloMosaic.multiReduction (F := Ideal) .minimumf axes t src acc h hφ hacc) := by
  subst hacc
  show AllReal (reduceFold h min (Ideal.ofBits φ (FKind.minimumf.neutral φ hφ)) src)
  rw [ofBits_minimumf_neutral]
  exact AllReal.reduceFold_min_top hsrc h hne

/-- Over ONE axis of positive extent every result index has a source index reducing to it. -/
theorem reduces_single_drop_surjective {a : Fin s.rank} (h : s.Reduces [a] t) (hpos : 0 < s.size a) (j : t.Idx) :
    ∃ i, h.drop i = j :=
  ⟨h.lift j ⟨0, hpos⟩, h.drop_lift j ⟨0, hpos⟩⟩

/-- A maximum multi-reduction of an all-real vector over ONE axis of positive extent is all real. -/
theorem AllReal.multiReduction_maximumf_single {a : Fin s.rank} {src : FVec Ideal s φ} (hsrc : AllReal src)
    (t : Shape) (acc : BitVec φ.bits) (h : s.Reduces [a] t) (hφ : FKind.Formats φ)
    (hacc : acc = FKind.maximumf.neutral φ hφ) (hpos : 0 < s.size a) :
    AllReal (Idealize.ShloMosaic.multiReduction (F := Ideal) .maximumf [a] t src acc h hφ hacc) :=
  AllReal.multiReduction_maximumf hsrc t acc h hφ hacc (reduces_single_drop_surjective h hpos)

/-- A minimum multi-reduction of an all-real vector over ONE axis of positive extent is all real. -/
theorem AllReal.multiReduction_minimumf_single {a : Fin s.rank} {src : FVec Ideal s φ} (hsrc : AllReal src)
    (t : Shape) (acc : BitVec φ.bits) (h : s.Reduces [a] t) (hφ : FKind.Formats φ)
    (hacc : acc = FKind.minimumf.neutral φ hφ) (hpos : 0 < s.size a) :
    AllReal (Idealize.ShloMosaic.multiReduction (F := Ideal) .minimumf [a] t src acc h hφ hacc) :=
  AllReal.multiReduction_minimumf hsrc t acc h hφ hacc (reduces_single_drop_surjective h hpos)

end Vectors

/-! ## The vector operations on coerced real vectors: each is the coerced real operation -/

section Coe
variable {s t : Shape} {φ : FTy}

/-- The pointwise sum of two coerced real vectors is the coerced pointwise sum. -/
theorem addf_coe (r q : s.Idx → ℝ) :
    Idealize.ShloMosaic.addf (F := Ideal) (φ := φ) (fun i => ((r i : ℝ) : EReal)) (fun i => ((q i : ℝ) : EReal))
      = fun i => ((r i + q i : ℝ) : EReal) :=
  funext fun i => (EReal.coe_add (r i) (q i)).symm

/-- The pointwise difference of two coerced real vectors is the coerced pointwise difference. -/
theorem subf_coe (r q : s.Idx → ℝ) :
    Idealize.ShloMosaic.subf (F := Ideal) (φ := φ) (fun i => ((r i : ℝ) : EReal)) (fun i => ((q i : ℝ) : EReal))
      = fun i => ((r i - q i : ℝ) : EReal) :=
  funext fun i => (EReal.coe_sub (r i) (q i)).symm

/-- The pointwise product of two coerced real vectors is the coerced pointwise product. -/
theorem mulf_coe (r q : s.Idx → ℝ) :
    Idealize.ShloMosaic.mulf (F := Ideal) (φ := φ) (fun i => ((r i : ℝ) : EReal)) (fun i => ((q i : ℝ) : EReal))
      = fun i => ((r i * q i : ℝ) : EReal) :=
  funext fun i => (EReal.coe_mul (r i) (q i)).symm

/-- The pointwise negation of a coerced real vector is the coerced pointwise negation. -/
theorem negf_coe (r : s.Idx → ℝ) :
    Idealize.ShloMosaic.negf (F := Ideal) (φ := φ) (fun i => ((r i : ℝ) : EReal)) = fun i => ((-r i : ℝ) : EReal) :=
  funext fun i => (EReal.coe_neg (r i)).symm

/-- The pointwise maximum of two coerced real vectors is the coerced pointwise maximum. -/
theorem maximumf_coe (r q : s.Idx → ℝ) :
    Idealize.ShloMosaic.maximumf (F := Ideal) (φ := φ) (fun i => ((r i : ℝ) : EReal)) (fun i => ((q i : ℝ) : EReal))
      = fun i => ((max (r i) (q i) : ℝ) : EReal) :=
  funext fun i => max_coe (r i) (q i)

/-- The pointwise minimum of two coerced real vectors is the coerced pointwise minimum. -/
theorem minimumf_coe (r q : s.Idx → ℝ) :
    Idealize.ShloMosaic.minimumf (F := Ideal) (φ := φ) (fun i => ((r i : ℝ) : EReal)) (fun i => ((q i : ℝ) : EReal))
      = fun i => ((min (r i) (q i) : ℝ) : EReal) :=
  funext fun i => min_coe (r i) (q i)

/-- The pointwise hyperbolic tangent of a coerced real vector is the coerced pointwise hyperbolic tangent. -/
theorem tanh_coe (r : s.Idx → ℝ) :
    Idealize.ShloMosaic.tanh (F := Ideal) (φ := φ) (fun i => ((r i : ℝ) : EReal))
      = fun i => ((Real.tanh (r i) : ℝ) : EReal) :=
  rfl

/-- The pointwise exponential of a coerced real vector is the coerced pointwise exponential. -/
theorem exp_coe (r : s.Idx → ℝ) :
    Idealize.ShloMosaic.exp (F := Ideal) (φ := φ) (fun i => ((r i : ℝ) : EReal))
      = fun i => ((Real.exp (r i) : ℝ) : EReal) :=
  rfl

/-- The pointwise reciprocal square root of a coerced vector of POSITIVE reals is the coerced pointwise reciprocal of
    the square root. -/
theorem rsqrt_coe (r : s.Idx → ℝ) (hr : ∀ i, 0 < r i) :
    Idealize.ShloMosaic.rsqrt (F := Ideal) (φ := φ) (fun i => ((r i : ℝ) : EReal))
      = fun i => (((Real.sqrt (r i))⁻¹ : ℝ) : EReal) :=
  funext fun i => rsqrt_coe_pos (hr i)

/-- The pointwise square root of a coerced vector of NON-NEGATIVE reals is the coerced pointwise square root. -/
theorem sqrt_coe (r : s.Idx → ℝ) (hr : ∀ i, 0 ≤ r i) :
    Idealize.ShloMosaic.sqrt (F := Ideal) (φ := φ) (fun i => ((r i : ℝ) : EReal))
      = fun i => ((Real.sqrt (r i) : ℝ) : EReal) :=
  funext fun i => sqrt_coe_nonneg (hr i)

/-- The pointwise quotient of a coerced real vector by a coerced vector of NONZERO reals is the coerced pointwise
    quotient. -/
theorem divf_coe (r q : s.Idx → ℝ) (hq : ∀ i, q i ≠ 0) :
    Idealize.ShloMosaic.divf (F := Ideal) (φ := φ) (fun i => ((r i : ℝ) : EReal)) (fun i => ((q i : ℝ) : EReal))
      = fun i => ((r i / q i : ℝ) : EReal) :=
  funext fun i => div_coe_coe (r i) (hq i)

/-- The pointwise quotient of a coerced real vector by the splat of a coerced NONZERO real is the coerced pointwise
    quotient. -/
theorem divf_broadcast_coe (r : s.Idx → ℝ) {b : ℝ} (hb : b ≠ 0) :
    Idealize.ShloMosaic.divf (F := Ideal) (φ := φ) (fun i => ((r i : ℝ) : EReal))
        (Idealize.ShloMosaic.broadcast s ((b : ℝ) : EReal))
      = fun i => ((r i / b : ℝ) : EReal) :=
  funext fun i => div_coe_coe (r i) hb

/-- The splat of a coerced real is the coerced constant vector. -/
theorem broadcast_coe (t : Shape) (b : ℝ) :
    Idealize.ShloMosaic.broadcast t ((b : ℝ) : EReal) = fun _ => ((b : ℝ) : EReal) :=
  rfl

/-- Broadcasting a coerced real vector is coercing the broadcast real vector. -/
theorem broadcastTo_coe (r : s.Idx → ℝ) (t : Shape) (h : s.Broadcasts t) :
    Idealize.ShloMosaic.broadcastTo t (fun i => ((r i : ℝ) : EReal)) h
      = fun j => ((Idealize.ShloMosaic.broadcastTo t r h j : ℝ) : EReal) :=
  rfl

/-- Reading a coerced real vector under another shape is coercing the real vector read under that shape. -/
theorem shapeCast_coe (r : s.Idx → ℝ) (t : Shape) (h : s.ShapeCasts t) :
    Idealize.ShloMosaic.shapeCast t (fun i => ((r i : ℝ) : EReal)) h
      = fun j => ((Idealize.ShloMosaic.shapeCast t r h j : ℝ) : EReal) :=
  rfl

/-- A block of a coerced real vector is the coerced block of the real vector. -/
theorem extractStridedSlice_coe (r : s.Idx → ℝ) (t : Shape) (off : Fin s.rank → Nat) (h : s.Slices off t) :
    Idealize.ShloMosaic.extractStridedSlice t off (fun i => ((r i : ℝ) : EReal)) h
      = fun j => ((Idealize.ShloMosaic.extractStridedSlice t off r h j : ℝ) : EReal) :=
  rfl

/-- A transpose of a coerced real vector is the coerced transpose of the real vector. -/
theorem transpose_coe (r : s.Idx → ℝ) (t : Shape) (perm : List (Fin s.rank)) (h : s.Transposes perm t) :
    Idealize.ShloMosaic.transpose t perm (fun i => ((r i : ℝ) : EReal)) h
      = fun j => ((Idealize.ShloMosaic.transpose t perm r h j : ℝ) : EReal) :=
  rfl

/-- Widening the format of a coerced real vector leaves it as it is. -/
theorem extf_coe (r : s.Idx → ℝ) (ψ : FTy) (h : φ.bits < ψ.bits) :
    Idealize.ShloMosaic.extf (F := Ideal) (φ := φ) ψ (fun i => ((r i : ℝ) : EReal)) h = fun i => ((r i : ℝ) : EReal) :=
  rfl

/-- Narrowing the format of a coerced real vector leaves it as it is. -/
theorem truncf_coe (r : s.Idx → ℝ) (ψ : FTy) (h : ψ.bits < φ.bits) :
    Idealize.ShloMosaic.truncf (F := Ideal) (φ := φ) ψ (fun i => ((r i : ℝ) : EReal)) h = fun i => ((r i : ℝ) : EReal) :=
  rfl

/-- A sum multi-reduction of a coerced real vector is, at each result index, the coerced sum of the reals reducing to
    it. -/
theorem multiReduction_add_coe {axes : List (Fin s.rank)} (r : s.Idx → ℝ) (t : Shape) (acc : BitVec φ.bits)
    (h : s.Reduces axes t) (hφ : FKind.Formats φ) (hacc : acc = FKind.add.neutral φ hφ) :
    Idealize.ShloMosaic.multiReduction (F := Ideal) .add axes t (fun i => ((r i : ℝ) : EReal)) acc h hφ hacc
      = fun j => ((∑ i ∈ Finset.univ.filter (fun i => h.drop i = j), r i : ℝ) : EReal) :=
  funext fun j => by
    show ∑ i ∈ Finset.univ.filter (fun i => h.drop i = j), ((r i : ℝ) : EReal) = _
    exact (coe_finset_sum _ r).symm

/-- A sum multi-reduction of a coerced real vector over ONE axis is, at each result index, the coerced sum over that
    axis's coordinates. -/
theorem multiReduction_add_single_coe {a : Fin s.rank} (r : s.Idx → ℝ) (t : Shape) (acc : BitVec φ.bits)
    (h : s.Reduces [a] t) (hφ : FKind.Formats φ) (hacc : acc = FKind.add.neutral φ hφ) :
    Idealize.ShloMosaic.multiReduction (F := Ideal) .add [a] t (fun i => ((r i : ℝ) : EReal)) acc h hφ hacc
      = fun j => ((∑ k : Fin (s.size a), r (h.lift j k) : ℝ) : EReal) :=
  funext fun j => by
    rw [Ideal.multiReduction_add_single, coe_sum]

/-- A matrix product with accumulator of coerced real operands is the coerced real matrix product: the accumulator
    plus the sum over the contraction of the products. -/
theorem matmul_coe {sl sr so : Shape} {φ₁ φ₂ : FTy} (d : DotDims sl sr so) (prec : Option ContractPrecision)
    (L : sl.Idx → ℝ) (R : sr.Idx → ℝ) (A : so.Idx → ℝ) :
    Idealize.ShloMosaic.matmul (F := Ideal) (φ₁ := φ₁) (φ₂ := φ₂) d prec (fun i => ((L i : ℝ) : EReal))
        (fun i => ((R i : ℝ) : EReal)) (fun j => ((A j : ℝ) : EReal))
      = fun j => ((A j + ∑ k : d.contr.Idx, L (d.lhsIdx j k) * R (d.rhsIdx j k) : ℝ) : EReal) :=
  funext fun j => by
    show ((A j : ℝ) : EReal) + ∑ k : d.contr.Idx, ((L (d.lhsIdx j k) : ℝ) : EReal) * ((R (d.rhsIdx j k) : ℝ) : EReal) = _
    rw [EReal.coe_add, coe_sum]
    exact congrArg (((A j : ℝ) : EReal) + ·) (Finset.sum_congr rfl fun k _ => (EReal.coe_mul _ _).symm)

end Coe

end Cert.LibRealVec

end
-- ==== Proof.Spec.lean ====
/-
  The responsibilities of a mixture of 64 diagonal Gaussians over 128 features, written as one function.

  For one sample with features X d, component k has the logit
      −Σ_d S(k,d)·X(d)² + 2·Σ_d M(k,d)·X(d) + β(k)
  where S is the inverse scale, M the scaled normalised centre and β(k) = log α(k) − ½·Σ_d log σ(k,d) − μ(k)
  gathers everything that does not depend on the sample (μ(k) = Σ_d c(k,d)²·S(k,d) for the normalised centre c).
  The same logit is also written as the negated squared distance plus the two log terms,
      −((Σ_d X(d)²·S(k,d) − 2·Σ_d X(d)·M(k,d)) + μ(k)) + log α(k) − ½·Σ_d log σ(k,d).
  On real numbers the two arrangements agree (the sums are the same up to the order of each product's factors and the
  rest is regrouping); on the extended reals the regrouping needs every term to be finite. The responsibilities are
  the softmax of the logits over k, taken with the row maximum subtracted.

  The literals 0, 2 and −∞ are kept as the binary32 patterns both programs print.
-/
import Idealize.ShloMosaic.PureOps.Ideal
import Idealize.ShloMosaic.PureOps.Ideal.Laws
import Idealize.ShloMosaic.Lib.ValueIdx
import proofs.«102254_j64269890617659_1_alg».proof.Proof.LibRealVec

noncomputable section

open scoped BigOperators

namespace Cert.GmmPosterior

open Idealize.ShloMosaic Idealize.ShloMosaic.ValueIdx Cert.LibRealVec

/-- The pattern of −∞, of 2 and of 0 in binary32, as extended reals. -/
abbrev negInfW : EReal := Ideal.ofBits .f32 0xFF800000#32
abbrev twoW : EReal := Ideal.ofBits .f32 0x40000000#32
abbrev zeroW : EReal := Ideal.ofBits .f32 0x00000000#32

/-- The maximum of a row of 64 logits, as both programs take it: a fold of max from −∞, then once more against −∞. -/
def rowMax (L : Fin 64 → EReal) : EReal := max negInfW (Finset.univ.fold max negInfW L)

/-- The softmax of a row of 64 logits at k, with the row maximum subtracted before the exponential. -/
def softmaxAt (L : Fin 64 → EReal) (k : Fin 64) : EReal :=
  Ideal.div (Ideal.exp (L k - rowMax L)) (∑ k' : Fin 64, Ideal.exp (L k' - rowMax L))

/-- The logit of component k with the sample-independent terms gathered in β. -/
def logitK (S M : (⟨2, ![64, 128]⟩ : Shape).Idx → EReal) (β : (⟨2, ![64, 1]⟩ : Shape).Idx → EReal)
    (X : Fin 128 → EReal) (k : Fin 64) : EReal :=
  zeroW - (∑ d : Fin 128, S (ix2 k d) * (X d * X d)) + twoW * (∑ d : Fin 128, M (ix2 k d) * X d) + β (ix2 k 0)

/-- The logit of component k as the negated squared distance plus the log-weight minus half the log-scale sum. -/
def logitR (S M : (⟨2, ![64, 128]⟩ : Shape).Idx → EReal) (μ la h : (⟨1, ![64]⟩ : Shape).Idx → EReal)
    (X : Fin 128 → EReal) (k : Fin 64) : EReal :=
  -((∑ d : Fin 128, (X d * X d) * S (ix2 k d)) - twoW * (∑ d : Fin 128, X d * M (ix2 k d)) + μ (ix1 k))
    + la (ix1 k) - h (ix1 k)

/-- The responsibilities of all 16 × 16384 samples, [16, 64, 16384], from the samples [16, 128, 16384] and the
    gathered parameters. -/
def postK (x : (⟨3, ![16, 128, 16384]⟩ : Shape).Idx → EReal) (S M : (⟨2, ![64, 128]⟩ : Shape).Idx → EReal)
    (β : (⟨2, ![64, 1]⟩ : Shape).Idx → EReal) : (⟨3, ![16, 64, 16384]⟩ : Shape).Idx → EReal :=
  fun i => softmaxAt (logitK S M β (fun d => x (ix3 (i 0) d (i 2)))) (i 1)

/-- The same from the separate terms. -/
def postR (x : (⟨3, ![16, 128, 16384]⟩ : Shape).Idx → EReal) (S M : (⟨2, ![64, 128]⟩ : Shape).Idx → EReal)
    (μ la h : (⟨1, ![64]⟩ : Shape).Idx → EReal) : (⟨3, ![16, 64, 16384]⟩ : Shape).Idx → EReal :=
  fun i => softmaxAt (logitR S M μ la h (fun d => x (ix3 (i 0) d (i 2)))) (i 1)

/-- The pattern of 2 denotes a real number. -/
theorem isReal_twoW : IsReal twoW := isReal_ofBits_f32 _ (by decide)

/-- On real terms the two arrangements of the logit agree, when β gathers log α − ½ Σ log σ − μ. -/
theorem logitR_eq_logitK (S M : (⟨2, ![64, 128]⟩ : Shape).Idx → EReal) (β : (⟨2, ![64, 1]⟩ : Shape).Idx → EReal)
    (μ la h : (⟨1, ![64]⟩ : Shape).Idx → EReal) (X : Fin 128 → EReal)
    (hS : AllReal S) (hM : AllReal M) (hμ : AllReal μ) (hla : AllReal la) (hh : AllReal h) (hX : AllReal X)
    (hβ : ∀ k : Fin 64, β (ix2 k 0) = la (ix1 k) - h (ix1 k) - μ (ix1 k)) (k : Fin 64) :
    logitR S M μ la h X k = logitK S M β X k := by
  obtain ⟨s, rfl⟩ := hS.lift
  obtain ⟨mm, rfl⟩ := hM.lift
  obtain ⟨u, rfl⟩ := hμ.lift
  obtain ⟨a, rfl⟩ := hla.lift
  obtain ⟨g, rfl⟩ := hh.lift
  obtain ⟨x, rfl⟩ := hX.lift
  obtain ⟨t, ht⟩ := isReal_twoW
  unfold logitR logitK
  rw [hβ k, ht, show zeroW = ((0 : ℝ) : EReal) from Ideal.ofBits_zero_f32]
  simp only [← EReal.coe_mul, ← coe_sum, ← EReal.coe_sub, ← EReal.coe_add, ← EReal.coe_neg]
  have hA : (∑ d : Fin 128, x d * x d * s (ix2 k d)) = ∑ d : Fin 128, s (ix2 k d) * (x d * x d) :=
    Finset.sum_congr rfl fun d _ => mul_comm _ _
  have hC : (∑ d : Fin 128, x d * mm (ix2 k d)) = ∑ d : Fin 128, mm (ix2 k d) * x d :=
    Finset.sum_congr rfl fun d _ => mul_comm _ _
  rw [hA, hC]
  congr 1
  ring

/-- So the responsibilities are one function in both arrangements, on real samples and parameters. -/
theorem postR_eq_postK (x : (⟨3, ![16, 128, 16384]⟩ : Shape).Idx → EReal) (S M : (⟨2, ![64, 128]⟩ : Shape).Idx → EReal)
    (β : (⟨2, ![64, 1]⟩ : Shape).Idx → EReal) (μ la h : (⟨1, ![64]⟩ : Shape).Idx → EReal)
    (hx : AllReal x) (hS : AllReal S) (hM : AllReal M) (hμ : AllReal μ) (hla : AllReal la) (hh : AllReal h)
    (hβ : ∀ k : Fin 64, β (ix2 k 0) = la (ix1 k) - h (ix1 k) - μ (ix1 k)) :
    postR x S M μ la h = postK x S M β := by
  funext i
  unfold postR postK
  have hL : logitR S M μ la h (fun d => x (ix3 (i 0) d (i 2))) = logitK S M β (fun d => x (ix3 (i 0) d (i 2))) :=
    funext fun k => logitR_eq_logitK S M β μ la h _ hS hM hμ hla hh (fun d => hx _) hβ k
  rw [hL]

end Cert.GmmPosterior

end
-- ==== Proof.KernelPayload.lean ====
/-
  What the kernel body stores, read at an index. At a grid point the body has a [1, 128, 4096] block of samples, the
  [64, 128] inverse scale S and scaled centre M, and the [64, 1] column β. It forms the [64, 4096] logits
  0 − S·x² + 2·M·x + β (two products over the 128 features into zero accumulators, the operands narrowed to bf16,
  which is the identity on extended reals), takes each column's maximum over the 64 components, subtracts it,
  exponentiates, and divides by the column's sum. Read at (0, k, n) this is the softmax at k of the 64 logits of the
  block's n-th sample. The non-pointwise steps — the two products, the two reductions over the component axis,
  the column and row broadcasts — are read at an index one by one, then composed.
-/
import proofs.«102254_j64269890617659_1_alg».proof.Proof.Gen.KernelIdeal.Skeleton
import proofs.«102254_j64269890617659_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GmmPosterior.Body

open Idealize.ShloMosaic Idealize.ShloMosaic.ValueIdx Cert.KernelIdeal Cert.KernelIdeal.Gen Cert.GmmPosterior

/-! ## The non-pointwise operations read at an index -/
/-- The left operand's row coordinate at result index i does not depend on the contraction position. -/
theorem dot_lhs_0 (i : S64x4096.Idx) (q : dot_S64x128_S128x4096_S64x4096_1_0_0_1_n_n.contr.Idx) :
    (dot_S64x128_S128x4096_S64x4096_1_0_0_1_n_n.lhsIdx i q 0).val = (i 0).val := by
  unfold DotDims.lhsIdx
  rw [dif_neg (show ¬(0 : Fin S64x128.rank) ∈ dot_S64x128_S128x4096_S64x4096_1_0_0_1_n_n.lhsBatch by decide),
    dif_pos (show (0 : Fin S64x128.rank) ∈ dot_S64x128_S128x4096_S64x4096_1_0_0_1_n_n.lhsNonContracting by decide)]
  rfl

/-- The left operand's column coordinate is the contraction position. -/
theorem dot_lhs_1 (i : S64x4096.Idx) (q : dot_S64x128_S128x4096_S64x4096_1_0_0_1_n_n.contr.Idx) :
    (dot_S64x128_S128x4096_S64x4096_1_0_0_1_n_n.lhsIdx i q 1).val = (q ⟨0, by decide⟩).val :=
  dot_S64x128_S128x4096_S64x4096_1_0_0_1_n_n.lhsIdx_val_of_single rfl i q

/-- The right operand's row coordinate is the contraction position. -/
theorem dot_rhs_0 (i : S64x4096.Idx) (q : dot_S64x128_S128x4096_S64x4096_1_0_0_1_n_n.contr.Idx) :
    (dot_S64x128_S128x4096_S64x4096_1_0_0_1_n_n.rhsIdx i q 0).val = (q ⟨0, by decide⟩).val :=
  dot_S64x128_S128x4096_S64x4096_1_0_0_1_n_n.rhsIdx_val_of_single rfl i q

/-- The right operand's column coordinate at result index i is the result's column. -/
theorem dot_rhs_1 (i : S64x4096.Idx) (q : dot_S64x128_S128x4096_S64x4096_1_0_0_1_n_n.contr.Idx) :
    (dot_S64x128_S128x4096_S64x4096_1_0_0_1_n_n.rhsIdx i q 1).val = (i 1).val := by
  unfold DotDims.rhsIdx
  rw [dif_neg (show ¬(1 : Fin S128x4096.rank) ∈ dot_S64x128_S128x4096_S64x4096_1_0_0_1_n_n.rhsBatch by decide),
    dif_pos (show (1 : Fin S128x4096.rank) ∈ dot_S64x128_S128x4096_S64x4096_1_0_0_1_n_n.rhsNonContracting by decide)]
  rfl

/-- A [64,128] × [128,4096] product into the zero accumulator, read at (k, n): the sum over the 128 contracted
    coordinates of the left operand at (k, d) times the right operand at (d, n). -/
theorem matmul_at (A : FVec Ideal S64x128 .bf16) (B : FVec Ideal S128x4096 .bf16) (k : Fin 64) (n : Fin 4096) :
    matmul (F := Ideal) dot_S64x128_S128x4096_S64x4096_1_0_0_1_n_n none A B
        (constant (F := Ideal) S64x4096 .f32 0x00000000#32) (ix2 k n)
      = ∑ d : Fin 128, A (ix2 k d) * B (ix2 d n) := by
  simp only [matmul]
  rw [Ideal.matmul_constant_zero_apply,
    ← Equiv.sum_comp (contrEquiv1 dot_S64x128_S128x4096_S64x4096_1_0_0_1_n_n 128 rfl rfl).symm]
  refine Finset.sum_congr rfl fun d _ => ?_
  have hk := contrEquiv1_symm_val dot_S64x128_S128x4096_S64x4096_1_0_0_1_n_n 128 rfl rfl d
  have el : dot_S64x128_S128x4096_S64x4096_1_0_0_1_n_n.lhsIdx (ix2 k n)
      ((contrEquiv1 dot_S64x128_S128x4096_S64x4096_1_0_0_1_n_n 128 rfl rfl).symm d) = ix2 k d :=
    funext fun a => Fin.ext (by
      match a with
      | ⟨0, _⟩ => exact dot_lhs_0 _ _
      | ⟨1, _⟩ => exact (dot_lhs_1 _ _).trans hk)
  have er : dot_S64x128_S128x4096_S64x4096_1_0_0_1_n_n.rhsIdx (ix2 k n)
      ((contrEquiv1 dot_S64x128_S128x4096_S64x4096_1_0_0_1_n_n 128 rfl rfl).symm d) = ix2 d n :=
    funext fun a => Fin.ext (by
      match a with
      | ⟨0, _⟩ => exact (dot_rhs_0 _ _).trans hk
      | ⟨1, _⟩ => exact dot_rhs_1 _ _)
  rw [el, er]

/-- The maximum over the 64 rows of a [64,4096] block, from −∞, read at column n: the fold of max over the rows. -/
theorem colmax_at (L : FVec Ideal S64x4096 .f32) (n : Fin 4096) :
    multiReduction (F := Ideal) .maximumf [0] S4096 L 0xFF800000#32 reduces_S64x4096_S4096 (.inl rfl) rfl (ix1 n)
      = Finset.univ.fold max negInfW (fun k : Fin 64 => L (ix2 k n)) := by
  refine (Ideal.multiReduction_maximumf_single L 0xFF800000#32 reduces_S64x4096_S4096 (.inl rfl) rfl (ix1 n)).trans ?_
  have e : (L ∘ reduces_S64x4096_S4096.lift (ix1 n)) = fun k : Fin 64 => L (ix2 k n) :=
    funext fun k => congrArg L (funext fun a => Fin.ext (by
      match a with
      | ⟨0, _⟩ => rfl
      | ⟨1, _⟩ => rfl))
  exact congrArg (Finset.univ.fold max negInfW) e

/-- The sum over the 64 rows of a [64,4096] block, read at column n. -/
theorem colsum_at (E : FVec Ideal S64x4096 .f32) (n : Fin 4096) :
    multiReduction (F := Ideal) .add [0] S4096 E 0x00000000#32 reduces_S64x4096_S4096 (.inl rfl) rfl (ix1 n)
      = ∑ k : Fin 64, E (ix2 k n) := by
  refine (Ideal.multiReduction_add_single E 0x00000000#32 reduces_S64x4096_S4096 (.inl rfl) rfl (ix1 n)).trans ?_
  exact Finset.sum_congr rfl fun k _ => congrArg E (funext fun a => Fin.ext (by
    match a with
    | ⟨0, _⟩ => rfl
    | ⟨1, _⟩ => rfl))

/-- A [64,1] column broadcast to [64,4096] reads, at (k, n), the column's entry at row k. -/
theorem bcast_col_at {α : Type} (v : S64x1.Idx → α) (k : Fin 64) (n : Fin 4096) :
    broadcastTo S64x4096 v broadcasts_S64x1_S64x4096 (ix2 k n) = v (ix2 k (0 : Fin 1)) := by
  refine broadcastTo_apply v broadcasts_S64x1_S64x4096 (ix2 k n) (ix2 k (0 : Fin 1)) fun ax => ?_
  match ax with
  | ⟨0, _⟩ => rfl
  | ⟨1, _⟩ => rfl

/-- A [4096] row recast as [1,4096] and broadcast to [64,4096] reads, at (k, n), the row's entry at n. -/
theorem bcast_row_at {α : Type} (r : S4096.Idx → α) (k : Fin 64) (n : Fin 4096) :
    broadcastTo S64x4096 (shapeCast S1x4096 r shapeCasts_S4096_S1x4096) broadcasts_S1x4096_S64x4096 (ix2 k n)
      = r (ix1 n) :=
  (broadcastTo_1b_ab_apply _ broadcasts_S1x4096_S64x4096 k n).trans
    (shapeCast_a_1a_apply r shapeCasts_S4096_S1x4096 (0 : Fin 1) n)

/-! ## The body's arithmetic in named stages -/

/-- The sample block with its unit batch axis dropped: [1,128,4096] read as [128,4096]. -/
def sampleBlock (v0 : Vec Ideal S1x128x4096 .f32) : FVec Ideal S128x4096 .f32 :=
  shapeCast S128x4096 v0 shapeCasts_S1x128x4096_S128x4096

/-- The product of a [64,128] parameter block with a [128,4096] block, into a zero accumulator, both operands
    narrowed to bf16 first (the identity on extended reals). -/
def paramDot (P : Vec Ideal S64x128 .f32) (Y : FVec Ideal S128x4096 .f32) : FVec Ideal S64x4096 .f32 :=
  matmul dot_S64x128_S128x4096_S64x4096_1_0_0_1_n_n none
    (truncf .bf16 (shapeCast S64x128 P shapeCasts_S64x128_S64x128) bitsLt_bf16_f32)
    (truncf .bf16 Y bitsLt_bf16_f32) (constant S64x4096 .f32 0x00000000#32)

/-- The body's [64,4096] logits: 0 − (S · x²) + 2 · (M · x) + β, β a [64,1] column broadcast along the samples. -/
def bodyLogits (v0 : Vec Ideal S1x128x4096 .f32) (v5 v8 : Vec Ideal S64x128 .f32) (v18 : Vec Ideal S64x1 .f32) :
    FVec Ideal S64x4096 .f32 :=
  addf
    (addf
      (subf (broadcast S64x4096 (Scalar.ofBits .f32 0x00000000#32))
        (paramDot v5 (mulf (sampleBlock v0) (sampleBlock v0))))
      (mulf (broadcast S64x4096 (Scalar.ofBits .f32 0x40000000#32)) (paramDot v8 (sampleBlock v0))))
    (broadcastTo S64x4096 (shapeCast S64x1 v18 shapeCasts_S64x1_S64x1) broadcasts_S64x1_S64x4096)

/-- The maximum of each column of a [64,4096] block: the fold from −∞, then once more against −∞. -/
def colMax (L : FVec Ideal S64x4096 .f32) : FVec Ideal S4096 .f32 :=
  maximumf (broadcast S4096 (Scalar.ofBits .f32 0xFF800000#32))
    (multiReduction .maximumf [0] S4096 L 0xFF800000#32 reduces_S64x4096_S4096 (.inl rfl) rfl)

/-- A [4096] row spread over the 64 rows of a [64,4096] block. -/
def spreadRow (r : FVec Ideal S4096 .f32) : FVec Ideal S64x4096 .f32 :=
  broadcastTo S64x4096 (shapeCast S1x4096 r shapeCasts_S4096_S1x4096) broadcasts_S1x4096_S64x4096

/-- The exponentials of a block's entries less their column's maximum. -/
def shiftedExp (L : FVec Ideal S64x4096 .f32) : FVec Ideal S64x4096 .f32 :=
  exp (subf L (spreadRow (colMax L)))

/-- The softmax of each column of a [64,4096] block, stored with a leading unit axis. -/
def bodyTail (L : FVec Ideal S64x4096 .f32) : FVec Ideal S1x64x4096 .f32 :=
  shapeCast S1x64x4096
    (divf (shiftedExp L)
      (spreadRow (multiReduction .add [0] S4096 (shiftedExp L) 0x00000000#32 reduces_S64x4096_S4096 (.inl rfl) rfl)))
    shapeCasts_S64x4096_S1x64x4096

/-- The body's stored value is the softmax tail of its logits: the stages above, composed, are the body's sequence of operations. -/
theorem pay_eq (v0 : Vec Ideal S1x128x4096 .f32) (v5 v8 : Vec Ideal S64x128 .f32) (v18 : Vec Ideal S64x1 .f32) :
    k0_pay1 (F := Ideal) v0 v5 v8 v18 = bodyTail (bodyLogits v0 v5 v8 v18) := rfl

/-! ## The stages read at an index -/

/-- The sample block at (d, n) is the loaded block at (0, d, n). -/
theorem sampleBlock_at (v0 : Vec Ideal S1x128x4096 .f32) (d : Fin 128) (n : Fin 4096) :
    sampleBlock v0 (ix2 d n) = v0 (ix3 (0 : Fin 1) d n) :=
  shapeCast_1ab_ab_apply v0 shapeCasts_S1x128x4096_S128x4096 d n

/-- A parameter block's product at (k, n): the sum over d of the parameter at (k, d) times the block at (d, n). -/
theorem paramDot_at (P : Vec Ideal S64x128 .f32) (Y : FVec Ideal S128x4096 .f32) (k : Fin 64) (n : Fin 4096) :
    paramDot P Y (ix2 k n) = ∑ d : Fin 128, P (ix2 k d) * Y (ix2 d n) := by
  unfold paramDot
  refine (matmul_at _ _ k n).trans ?_
  refine Finset.sum_congr rfl fun d _ => ?_
  exact congrArg (· * Y (ix2 d n)) (congrFun (shapeCast_self P shapeCasts_S64x128_S64x128) (ix2 k d))

/-- The body's logits at (k, n) are the specification's logit of component k at the n-th sample of the block. -/
theorem bodyLogits_at (v0 : Vec Ideal S1x128x4096 .f32) (v5 v8 : Vec Ideal S64x128 .f32) (v18 : Vec Ideal S64x1 .f32)
    (k : Fin 64) (n : Fin 4096) :
    bodyLogits v0 v5 v8 v18 (ix2 k n) = logitK v5 v8 v18 (fun d => v0 (ix3 (0 : Fin 1) d n)) k := by
  have hq : paramDot v5 (mulf (sampleBlock v0) (sampleBlock v0)) (ix2 k n)
      = ∑ d : Fin 128, v5 (ix2 k d) * (v0 (ix3 (0 : Fin 1) d n) * v0 (ix3 (0 : Fin 1) d n)) := by
    refine (paramDot_at v5 _ k n).trans (Finset.sum_congr rfl fun d _ => ?_)
    show v5 (ix2 k d) * (sampleBlock v0 (ix2 d n) * sampleBlock v0 (ix2 d n)) = _
    rw [sampleBlock_at]
  have hc : paramDot v8 (sampleBlock v0) (ix2 k n) = ∑ d : Fin 128, v8 (ix2 k d) * v0 (ix3 (0 : Fin 1) d n) := by
    refine (paramDot_at v8 _ k n).trans (Finset.sum_congr rfl fun d _ => ?_)
    rw [sampleBlock_at]
  have hb : broadcastTo S64x4096 (shapeCast S64x1 v18 shapeCasts_S64x1_S64x1) broadcasts_S64x1_S64x4096 (ix2 k n)
      = v18 (ix2 k (0 : Fin 1)) :=
    (bcast_col_at _ k n).trans (congrFun (shapeCast_self v18 shapeCasts_S64x1_S64x1) (ix2 k (0 : Fin 1)))
  show zeroW - paramDot v5 (mulf (sampleBlock v0) (sampleBlock v0)) (ix2 k n)
      + twoW * paramDot v8 (sampleBlock v0) (ix2 k n)
      + broadcastTo S64x4096 (shapeCast S64x1 v18 shapeCasts_S64x1_S64x1) broadcasts_S64x1_S64x4096 (ix2 k n) = _
  rw [hq, hc, hb]
  rfl

/-- The column maximum at n is the specification's row maximum of the column's 64 entries. -/
theorem colMax_at (L : FVec Ideal S64x4096 .f32) (n : Fin 4096) :
    colMax L (ix1 n) = rowMax (fun k : Fin 64 => L (ix2 k n)) := by
  unfold colMax rowMax
  rw [maximumf_apply, broadcast_apply, colmax_at]
  rfl

/-- A spread row at (k, n) is the row at n. -/
theorem spreadRow_at (r : FVec Ideal S4096 .f32) (k : Fin 64) (n : Fin 4096) : spreadRow r (ix2 k n) = r (ix1 n) :=
  bcast_row_at r k n

/-- The shifted exponential at (k, n). -/
theorem shiftedExp_at (L : FVec Ideal S64x4096 .f32) (k : Fin 64) (n : Fin 4096) :
    shiftedExp L (ix2 k n) = Ideal.exp (L (ix2 k n) - rowMax (fun k' : Fin 64 => L (ix2 k' n))) := by
  show Ideal.exp (L (ix2 k n) - spreadRow (colMax L) (ix2 k n)) = _
  rw [spreadRow_at, colMax_at]

/-- The softmax tail at (0, k, n) is the specification's softmax of column n at k. -/
theorem bodyTail_at (L : FVec Ideal S64x4096 .f32) (k : Fin 64) (n : Fin 4096) :
    bodyTail L (ix3 (0 : Fin 1) k n) = softmaxAt (fun k' : Fin 64 => L (ix2 k' n)) k := by
  unfold bodyTail
  refine (shapeCast_ab_1ab_apply _ shapeCasts_S64x4096_S1x64x4096 (0 : Fin 1) k n).trans ?_
  show Ideal.div (shiftedExp L (ix2 k n))
      (spreadRow (multiReduction .add [0] S4096 (shiftedExp L) 0x00000000#32 reduces_S64x4096_S4096 (.inl rfl) rfl)
        (ix2 k n)) = _
  rw [spreadRow_at, colsum_at, shiftedExp_at]
  unfold softmaxAt
  exact congrArg (Ideal.div _) (Finset.sum_congr rfl fun k' _ => shiftedExp_at L k' n)

/-- The body's stored value at (0, k, n) of its block: the softmax at k of the logits of the block's n-th sample. -/
theorem pay_apply (v0 : Vec Ideal S1x128x4096 .f32) (v5 v8 : Vec Ideal S64x128 .f32) (v18 : Vec Ideal S64x1 .f32)
    (k : Fin 64) (n : Fin 4096) :
    k0_pay1 (F := Ideal) v0 v5 v8 v18 (ix3 (0 : Fin 1) k n)
      = softmaxAt (logitK v5 v8 v18 (fun d => v0 (ix3 (0 : Fin 1) d n))) k :=
  (congrFun (pay_eq v0 v5 v8 v18) (ix3 (0 : Fin 1) k n)).trans
    ((bodyTail_at (bodyLogits v0 v5 v8 v18) k n).trans
      (congrArg (fun L : Fin 64 → EReal => softmaxAt L k) (funext fun k' => bodyLogits_at v0 v5 v8 v18 k' n)))

end Cert.GmmPosterior.Body

end
-- ==== Proof.KernelValue.lean ====
/-
  The kernel's result array as one function of its arguments.

  The grid has 16 × 4 points; point (b, j) reads sample block x[b, :, 4096 j : 4096 (j+1)] and the three parameter
  arrays whole, and writes block [b, :, 4096 j : 4096 (j+1)] of the result. Entry (0, k, n) of what the point
  stores is the softmax over k of the logits of sample n of its block (the body's value, read at an index in
  the module this one imports), so the block is the restriction of the responsibilities of the whole sample
  array to the block's rectangle; the 64 rectangles tile the result. The parameter arrays the region finds were
  written by the host operations before it: the inverse scale exp(−log σ), the scaled normalised centre, and the
  column of log α − ½ Σ log σ − μ; they are the same operations, in the same order, that the reference applies, so
  they are named by the reference's own stages.
-/
import proofs.«102254_j64269890617659_1_alg».proof.Proof.Gen.KernelIdeal.Value
import proofs.«102254_j64269890617659_1_alg».proof.Proof.Gen.ReferenceIdeal.Read
import proofs.«102254_j64269890617659_1_alg».proof.Proof.KernelPayload
import proofs.«102254_j64269890617659_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.GmmPosterior.Blocks

open Cert.KernelIdeal Cert.KernelIdeal.Gen Cert.KernelIdeal.Value Cert.GmmPosterior

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the sample window moves with the result window on the batch and lane axes and
    takes all 128 features; the three parameter windows and the result's component axis stay at block 0. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (0 : Fin 3) ≤ 15 ∧ win0_4.index t (2 : Fin 3) ≤ 3 :=
  (by decide +kernel : ∀ t : Fin grid0.N, _)

/-- Every block (b, 0, j) of the result is some point's. -/
theorem idx_onto : ∀ (q0 : Fin 16) (q2 : Fin 4), ∃ t : Fin cfg0.N, win0_4.index t = ![q0.val, 0, q2.val] :=
  (by decide +kernel : ∀ (q0 : Fin 16) (q2 : Fin 4), ∃ t : Fin grid0.N, win0_4.index t = ![q0.val, 0, q2.val])

/-- A parameter window's block is the whole array. -/
theorem iblk1_eq (c : Dev nD) (t : Fin cfg0.N) : (iblk m c 1 t : S64x128.Idx → EReal) = V m c main_v6 := by
  obtain ⟨_, _, _, e10, e11, _⟩ := idx_facts t
  funext y
  show V m c main_v6 (((cfg0.win 1).blk t).view.emb y) = V m c main_v6 y
  congr 1
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem iblk2_eq (c : Dev nD) (t : Fin cfg0.N) : (iblk m c 2 t : S64x128.Idx → EReal) = V m c main_v7 := by
  obtain ⟨_, _, _, _, _, e20, e21, _⟩ := idx_facts t
  funext y
  show V m c main_v7 (((cfg0.win 2).blk t).view.emb y) = V m c main_v7 y
  congr 1
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem iblk3_eq (c : Dev nD) (t : Fin cfg0.N) : (iblk m c 3 t : S64x1.Idx → EReal) = V m c main_v16 := by
  obtain ⟨_, _, _, _, _, _, _, e30, e31, _⟩ := idx_facts t
  funext y
  show V m c main_v16 (((cfg0.win 3).blk t).view.emb y) = V m c main_v16 y
  congr 1
  funext a; apply Fin.ext
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- What point t writes back is block t of the responsibilities of the arrays the region finds. -/
theorem flushed_eq (c : Dev nD) (t : Fin cfg0.N) :
    (dats m 0 c).flushed 4 t = ((cfg0.win 4).blk t).view.read (Elt Ideal)
      (postK (V m c main_arg0) (V m c main_v6) (V m c main_v7) (V m c main_v16)) := by
  rw [flushed4]
  unfold out0_4
  rw [View.canon_unit_zero hz3]
  simp only [View.ld_unit_zero (S := S1x128x4096) hz3, View.ld_unit_zero (S := S64x128) hz2,
    View.ld_unit_zero (S := S64x1) hz2]
  obtain ⟨e00, e01, e02, _, _, _, _, _, _, e41, _, _⟩ := idx_facts t
  funext j
  obtain ⟨z, k, n, rfl⟩ : ∃ (z : Fin 1) (k : Fin 64) (n : Fin 4096), j = ix3 z k n := ⟨j 0, j 1, j 2, eq_ix3 j⟩
  obtain rfl : z = 0 := Subsingleton.elim _ _
  show k0_pay1 (F := Ideal) (iblk m c 0 t) (iblk m c 1 t) (iblk m c 2 t) (iblk m c 3 t) (ix3 (0 : Fin 1) k n)
    = postK (V m c main_arg0) (V m c main_v6) (V m c main_v7) (V m c main_v16) (((cfg0.win 4).blk t).view.emb (ix3 (0 : Fin 1) k n))
  refine (Body.pay_apply _ _ _ _ k n).trans ?_
  rw [iblk1_eq, iblk2_eq, iblk3_eq]
  unfold postK
  have hE1 : ((((cfg0.win 4).blk t).view.emb (ix3 (0 : Fin 1) k n)) 1 : Fin 64) = k :=
    Fin.ext (by show win0_4.index t (1 : Fin 3) * 64 + 1 * k.val = k.val; omega)
  have hX : (fun d : Fin 128 => (iblk m c 0 t : S1x128x4096.Idx → EReal) (ix3 (0 : Fin 1) d n))
      = fun d : Fin 128 => (V m c main_arg0 : S16x128x16384.Idx → EReal)
          (ix3 ((((cfg0.win 4).blk t).view.emb (ix3 (0 : Fin 1) k n)) 0) d ((((cfg0.win 4).blk t).view.emb (ix3 (0 : Fin 1) k n)) 2)) := by
    funext d
    show V m c main_arg0 (((cfg0.win 0).blk t).view.emb (ix3 (0 : Fin 1) d n)) = _
    congr 1
    funext a; apply Fin.ext
    match a with
    | ⟨0, _⟩ => show win0_0.index t (0 : Fin 3) * 1 + 1 * 0 = win0_4.index t (0 : Fin 3) * 1 + 1 * 0; omega
    | ⟨1, _⟩ => show win0_0.index t (1 : Fin 3) * 128 + 1 * d.val = d.val; omega
    | ⟨2, _⟩ => show win0_0.index t (2 : Fin 3) * 4096 + 1 * n.val = win0_4.index t (2 : Fin 3) * 4096 + 1 * n.val; omega
  rw [hX, hE1]

/-- An index of the result is in point t's block iff each coordinate is in the block's range on its axis. -/
theorem mem_blk (t : Fin cfg0.N) (i : S16x64x16384.Idx) :
    i ∈ ((cfg0.win 4).blk t).view.set ↔ ∀ a : Fin 3, win0_4.index t a * S1x64x4096.size a ≤ (i a).val
      ∧ (i a).val < win0_4.index t a * S1x64x4096.size a + S1x64x4096.size a := by
  show i ∈ ((View.whole main_v17).slice (win0_4.rect t)).set ↔ _
  rw [View.set_slice_whole, Rect.mem_set_unit]
  exact Iff.rfl

/-- The 64 blocks tile the result: entry (b, k, n) is in the block of the point with indices (b, 0, n / 4096). -/
theorem cover (i : S16x64x16384.Idx) : ∃ t : Fin cfg0.N, (cfg0.win 4).flush t = true ∧ i ∈ ((cfg0.win 4).blk t).view.set := by
  have hi0 : (i 0).val < 16 := (i 0).isLt
  have hi1 : (i 1).val < 64 := (i 1).isLt
  have hi2 : (i 2).val < 16384 := (i 2).isLt
  obtain ⟨t, ht⟩ := idx_onto ⟨(i 0).val, hi0⟩ ⟨(i 2).val / 4096, by omega⟩
  have q0 : win0_4.index t (0 : Fin 3) = (i 0).val := congrFun ht 0
  have q1 : win0_4.index t (1 : Fin 3) = 0 := congrFun ht 1
  have q2 : win0_4.index t (2 : Fin 3) = (i 2).val / 4096 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 4096 ≤ (i 2).val ∧ (i 2).val < win0_4.index t (2 : Fin 3) * 4096 + 4096; omega

/-- So the result array ends at the responsibilities of the arrays the region finds. -/
theorem final (c : Dev nD) : (dats m 0 c).arrAt 4 cfg0.N
    = postK (V m c main_arg0) (V m c main_v6) (V m c main_v7) (V m c main_v16) :=
  (dats m 0 c).arrAt_eq_of_cover 4 _ (fun t _ => flushed_eq m c t) cover

/-! ## The parameter arrays the region finds -/

/-- The inverse scale exp(−log σ): the reference's stage of the same name. -/
theorem V_sinv (c : Dev nD) :
    (V m c main_v6 : S64x128.Idx → EReal)
      = Cert.ReferenceIdeal.Read.val_main_v7 (F := Ideal) (m ((c : Thread nD τ).loc main_arg2)) := by
  dsimp only [V]
  simp only [hostOps0, hostOps0_1, List.flatten_cons, List.flatten_nil, List.append_nil, List.cons_append, List.nil_append]
  after_results
  rfl

/-- The scaled normalised centre. -/
theorem V_musig (c : Dev nD) :
    (V m c main_v7 : S64x128.Idx → EReal)
      = Cert.ReferenceIdeal.Read.val_main_v11 (F := Ideal) (m ((c : Thread nD τ).loc main_arg1)) (m ((c : Thread nD τ).loc main_arg2)) := by
  dsimp only [V]
  simp only [hostOps0, hostOps0_1, List.flatten_cons, List.flatten_nil, List.append_nil, List.cons_append, List.nil_append]
  after_results
  rfl

/-- The gathered column log α − ½ Σ log σ − μ, as a [64, 1] array. -/
def betaOf (x1 x2 : FVec Ideal S64x128 .f32) (x3 : FVec Ideal S64 .f32) : S64x1.Idx → EReal :=
  shapeCast S64x1 (subf (F := Ideal) (φ := .f32) (subf (F := Ideal) (φ := .f32) x3
    (Cert.ReferenceIdeal.Read.val_main_v27 (F := Ideal) x2)) (Cert.ReferenceIdeal.Read.val_main_v15 (F := Ideal) x1 x2))
    shapeCasts_S64_S64x1

set_option maxHeartbeats 2000000 in
theorem V_beta (c : Dev nD) :
    @Eq (S64x1.Idx → EReal) (V m c main_v16)
      (betaOf (m ((c : Thread nD τ).loc main_arg1)) (m ((c : Thread nD τ).loc main_arg2)) (m ((c : Thread nD τ).loc main_arg3))) := by
  dsimp only [V]
  simp only [hostOps0, hostOps0_1, List.flatten_cons, List.flatten_nil, List.append_nil, List.cons_append, List.nil_append]
  after_results
  rfl

/-- Entry (k, 0) of the column. -/
theorem betaOf_apply (x1 x2 : FVec Ideal S64x128 .f32) (x3 : FVec Ideal S64 .f32) (k : Fin 64) :
    betaOf x1 x2 x3 (ix2 k 0) = x3 (ix1 k) - Cert.ReferenceIdeal.Read.val_main_v27 (F := Ideal) x2 (ix1 k)
      - Cert.ReferenceIdeal.Read.val_main_v15 (F := Ideal) x1 x2 (ix1 k) := by
  unfold betaOf
  refine (shapeCast_apply _ shapeCasts_S64_S64x1 (ix2 k 0) (ix1 k) ?_).trans rfl
  rw [Shape.rowMajor_val_two, Shape.rowMajor_val_one]
  show k.val = k.val * 1 + 0
  omega

/-- The result array as a function of the arguments. -/
theorem final_args (c : Dev nD) : (dats m 0 c).arrAt 4 cfg0.N
    = postK (m ((c : Thread nD τ).loc main_arg0))
        (Cert.ReferenceIdeal.Read.val_main_v7 (F := Ideal) (m ((c : Thread nD τ).loc main_arg2)))
        (Cert.ReferenceIdeal.Read.val_main_v11 (F := Ideal) (m ((c : Thread nD τ).loc main_arg1)) (m ((c : Thread nD τ).loc main_arg2)))
        (betaOf (m ((c : Thread nD τ).loc main_arg1)) (m ((c : Thread nD τ).loc main_arg2)) (m ((c : Thread nD τ).loc main_arg3))) := by
  rw [final, V_main_arg0, V_sinv, V_musig, V_beta]

/-- The kernel's run: the result array at the responsibilities of the arguments, the arguments unchanged. -/
theorem run : θ_run defs (onTc (τ := τ) (main (F := Ideal))) ⟨m, fun _ => 0, ρ⟩ fun r => ∀ c : Dev nD,
      r.2.mem ((c : Thread nD τ).loc main_v17)
        = postK (m ((c : Thread nD τ).loc main_arg0))
            (Cert.ReferenceIdeal.Read.val_main_v7 (F := Ideal) (m ((c : Thread nD τ).loc main_arg2)))
            (Cert.ReferenceIdeal.Read.val_main_v11 (F := Ideal) (m ((c : Thread nD τ).loc main_arg1)) (m ((c : Thread nD τ).loc main_arg2)))
            (betaOf (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩) (run_blocks m ρ)

end Cert.GmmPosterior.Blocks

end
-- ==== Proof.RefRead.lean ====
/-
  The reference's result read at an index. The reference transposes the samples to [16, 16384, 128], contracts the
  squared samples with the inverse scale and the samples with the scaled centre over the 128 features, and combines
  the two contractions with the three per-component terms into the logits at (b, n, k); it then takes the maximum
  of each row of 64 logits (a fold of max from −∞, once more against −∞), subtracts it, exponentiates, sums the row
  from zero, divides, and transposes back to [16, 64, 16384]. Read at (b, k, n) this is the softmax at k of the row
  of logits of sample (b, ·, n), the logits in the arrangement that keeps the squared distance together.
-/
import proofs.«102254_j64269890617659_1_alg».proof.Proof.Gen.ReferenceIdeal.Read
import proofs.«102254_j64269890617659_1_alg».proof.Proof.Spec
import Idealize.ShloMosaic.Lib.ValueIdx
import Idealize.ShloMosaic.PureOps.Ideal.Laws

noncomputable section

open scoped BigOperators

namespace Cert.GmmPosterior.Ref

open Idealize.ShloMosaic Idealize.ShloMosaic.ValueIdx Cert.ReferenceIdeal Cert.ReferenceIdeal.Gen Cert.ReferenceIdeal.Read Cert.GmmPosterior

/-- The logits stage at (b, n, k): the logit of component k for the sample (b, ·, n), in the arrangement of the separate
    terms. The two contractions read the transposed samples at (b, n, d), which is the sample's feature d; the three
    per-component terms are broadcast through [1, 1, 64] and read at k. -/
theorem logits_eq (x0 : FVec Ideal S16x128x16384 .f32) (x1 x2 : FVec Ideal S64x128 .f32) (x3 : FVec Ideal S64 .f32)
    (b : Fin 16) (n : Fin 16384) (k : Fin 64) :
    val_main_v30 (F := Ideal) x0 x1 x2 x3 (ix3 b n k)
      = logitR (val_main_v7 (F := Ideal) x2) (val_main_v11 (F := Ideal) x1 x2) (val_main_v15 (F := Ideal) x1 x2) x3
          (val_main_v27 (F := Ideal) x2) (fun d => x0 (ix3 b d n)) k := by
  have e0 : ∀ d : Fin 128, idx_main_v0 (lidx_main_v10 (ix3 b n k) d) = ix3 b d n := fun d =>
    funext fun a => Fin.ext (by match a with | ⟨0, _⟩ => rfl | ⟨1, _⟩ => rfl | ⟨2, _⟩ => rfl)
  have e0' : ∀ d : Fin 128, idx_main_v0 (lidx_main_v12 (ix3 b n k) d) = ix3 b d n := fun d =>
    funext fun a => Fin.ext (by match a with | ⟨0, _⟩ => rfl | ⟨1, _⟩ => rfl | ⟨2, _⟩ => rfl)
  have er : ∀ d : Fin 128, ridx_main_v10 (ix3 b n k) d = ix2 k d := fun d =>
    funext fun a => Fin.ext (by match a with | ⟨0, _⟩ => rfl | ⟨1, _⟩ => rfl)
  have er' : ∀ d : Fin 128, ridx_main_v12 (ix3 b n k) d = ix2 k d := fun d =>
    funext fun a => Fin.ext (by match a with | ⟨0, _⟩ => rfl | ⟨1, _⟩ => rfl)
  have e19 : idx_main_v19 (idx_main_v20 (ix3 b n k)) = ix1 k :=
    funext fun a => Fin.ext (by match a with | ⟨0, _⟩ => rfl)
  have e23 : idx_main_v23 (idx_main_v24 (ix3 b n k)) = ix1 k :=
    funext fun a => Fin.ext (by match a with | ⟨0, _⟩ => rfl)
  have e28 : idx_main_v28 (idx_main_v29 (ix3 b n k)) = ix1 k :=
    funext fun a => Fin.ext (by match a with | ⟨0, _⟩ => rfl)
  rw [val_main_v30_apply, val_main_v25_apply, val_main_v22_apply, val_main_v21_apply, val_main_v18_apply,
    val_main_v10_apply, val_main_v17_apply, val_main_v16_apply, val_main_cst_2_apply, val_main_v12_apply,
    val_main_v20_apply, val_main_v19_apply, val_main_v24_apply, val_main_v23_apply, val_main_v29_apply,
    val_main_v28_apply, e19, e23, e28]
  simp only [val_main_v9_apply, val_main_v0_apply, e0, e0', er, er', Ideal.hostNegf_def, Ideal.negf_def,
    Ideal.subf_def, Ideal.addf_def, Ideal.mulf_def, Ideal.ofBits_def]
  rfl

/-- The row maximum stage at (b, n): the maximum, against the pattern of −∞, of the fold of max from that pattern over
    the 64 logits of the row. A reduction over the last axis folds over that axis's coordinates, and the index over
    (b, n) with coordinate k inserted last is (b, n, k). -/
theorem rowmax_eq (x0 : FVec Ideal S16x128x16384 .f32) (x1 x2 : FVec Ideal S64x128 .f32) (x3 : FVec Ideal S64 .f32)
    (b : Fin 16) (n : Fin 16384) :
    val_main_v33 (F := Ideal) x0 x1 x2 x3 (ix2 b n)
      = rowMax (fun k : Fin 64 => val_main_v30 (F := Ideal) x0 x1 x2 x3 (ix3 b n k)) := by
  have h : S16x16384x64.Reduces [2] S16x16384 := by decide
  have hl : (val_main_v30 (F := Ideal) x0 x1 x2 x3 ∘ h.lift (ix2 b n))
      = fun k : Fin 64 => val_main_v30 (F := Ideal) x0 x1 x2 x3 (ix3 b n k) :=
    funext fun k => congrArg (val_main_v30 (F := Ideal) x0 x1 x2 x3)
      (funext fun a => Fin.ext (by match a with | ⟨0, _⟩ => rfl | ⟨1, _⟩ => rfl | ⟨2, _⟩ => rfl))
  rw [val_main_v33_apply, val_main_v32_apply, val_main_cst_5_apply]
  unfold val_main_v31
  rw [Host.reduce_eq_fold_single (FloatOps.maximumf (F := Ideal) (φ := .f32)) _ _ reducesTo_S16x16384x64_S16x16384_d2 h
    h_S_ (ix2 b n), hl]
  generalize (fun k : Fin 64 => val_main_v30 (F := Ideal) x0 x1 x2 x3 (ix3 b n k)) = L
  rfl

/-- The exponential stage at (b, n, k): the exponential of the logit of component k less the row's maximum. -/
theorem expstage_eq (x0 : FVec Ideal S16x128x16384 .f32) (x1 x2 : FVec Ideal S64x128 .f32) (x3 : FVec Ideal S64 .f32)
    (b : Fin 16) (n : Fin 16384) (k : Fin 64) :
    val_main_v37 (F := Ideal) x0 x1 x2 x3 (ix3 b n k)
      = Ideal.exp (logitR (val_main_v7 (F := Ideal) x2) (val_main_v11 (F := Ideal) x1 x2) (val_main_v15 (F := Ideal) x1 x2) x3
            (val_main_v27 (F := Ideal) x2) (fun d => x0 (ix3 b d n)) k
          - rowMax (logitR (val_main_v7 (F := Ideal) x2) (val_main_v11 (F := Ideal) x1 x2) (val_main_v15 (F := Ideal) x1 x2) x3
            (val_main_v27 (F := Ideal) x2) (fun d => x0 (ix3 b d n)))) := by
  have e34 : idx_main_v34 (idx_main_v35 (ix3 b n k)) = ix2 b n :=
    funext fun a => Fin.ext (by match a with | ⟨0, _⟩ => rfl | ⟨1, _⟩ => rfl)
  have hL : (fun k' : Fin 64 => val_main_v30 (F := Ideal) x0 x1 x2 x3 (ix3 b n k'))
      = logitR (val_main_v7 (F := Ideal) x2) (val_main_v11 (F := Ideal) x1 x2) (val_main_v15 (F := Ideal) x1 x2) x3
          (val_main_v27 (F := Ideal) x2) (fun d => x0 (ix3 b d n)) :=
    funext fun k' => logits_eq x0 x1 x2 x3 b n k'
  rw [val_main_v37_apply, val_main_v36_apply, val_main_v35_apply, val_main_v34_apply, e34, rowmax_eq, hL, logits_eq,
    Ideal.hostUnary_exp_def, Ideal.subf_def]

/-- The reference's result stage is the responsibilities of the samples over the reference's own parameter stages:
    the exponential stage divided by its row sum (whose initial value is zero), read through the final transpose. -/
theorem ref_eq (x0 : FVec Ideal S16x128x16384 .f32) (x1 x2 : FVec Ideal S64x128 .f32) (x3 : FVec Ideal S64 .f32) :
    val_main_v42 (F := Ideal) x0 x1 x2 x3
      = postR x0 (val_main_v7 (F := Ideal) x2) (val_main_v11 (F := Ideal) x1 x2) (val_main_v15 (F := Ideal) x1 x2) x3
          (val_main_v27 (F := Ideal) x2) := by
  funext i
  obtain ⟨b, k, n, rfl⟩ : ∃ (b : Fin 16) (k : Fin 64) (n : Fin 16384), i = ix3 b k n := ⟨i 0, i 1, i 2, eq_ix3 i⟩
  have e42 : idx_main_v42 (ix3 b k n) = ix3 b n k :=
    funext fun a => Fin.ext (by match a with | ⟨0, _⟩ => rfl | ⟨1, _⟩ => rfl | ⟨2, _⟩ => rfl)
  have e39 : idx_main_v39 (idx_main_v40 (ix3 b n k)) = ix2 b n :=
    funext fun a => Fin.ext (by match a with | ⟨0, _⟩ => rfl | ⟨1, _⟩ => rfl)
  have e38 : ∀ k' : Fin 64, idx_main_v38 (ix2 b n) k' = ix3 b n k' := fun k' =>
    funext fun a => Fin.ext (by match a with | ⟨0, _⟩ => rfl | ⟨1, _⟩ => rfl | ⟨2, _⟩ => rfl)
  rw [val_main_v42_apply, e42, val_main_v41_apply, val_main_v40_apply, val_main_v39_apply, e39, val_main_v38_apply,
    val_main_cst_6_apply]
  simp only [e38, expstage_eq, Ideal.hostDivf_def, Ideal.ofBits_def, Ideal.ofBits_zero_f32, zero_add]
  rfl

end Cert.GmmPosterior.Ref

end
-- ==== Proof.LibFiniteReal.lean ====
/-
  An extended real whose absolute value is below +∞ is a real number. The absolute value is max(x, −x), the
  comparison is the order's, and +∞ is what the binary32 pattern 0x7F800000 denotes: this is how a precondition
  "every entry is finite" reads, entry by entry, on the extended reals.
-/
import Idealize.ShloMosaic.PureOps.Ideal

noncomputable section

namespace Cert.LibFiniteReal

open Idealize.ShloMosaic

/-- The pattern 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ a : ℝ, x = (a : EReal) := by
  rw [ofBits_inf] at h
  induction x using EReal.rec with
  | bot => exfalso; revert h; simp [Ideal.cmp]
  | coe a => exact ⟨a, rfl⟩
  | top => exfalso; revert h; simp [Ideal.cmp]

end Cert.LibFiniteReal

end
-- ==== Proof.RealParams.lean ====
/-
  Finiteness of the parameter stages. The precondition says that every entry of the four inputs has absolute value
  below +∞; on the extended reals this makes every entry a real number. From real centres and log-scales the
  reference's parameter stages are real: the inverse scale exp(−s); the centre divided by max(‖centre‖, ε), where the
  squared norm is a sum of squares (a non-negative real, so its square root is real) and ε is a positive real (so the
  divisor is never zero); their products; and the sums of these along a row.
-/
import proofs.«102254_j64269890617659_1_alg».proof.Proof.Gen.ReferenceIdeal.Read
import proofs.«102254_j64269890617659_1_alg».proof.Proof.Gen.Pre_finite_inputs
import proofs.«102254_j64269890617659_1_alg».proof.Proof.LibRealVec
import proofs.«102254_j64269890617659_1_alg».proof.Proof.LibFiniteReal
import Idealize.ShloMosaic.Lib.ReduceAll
import Idealize.ShloMosaic.Lib.ValueIdx

noncomputable section

open scoped BigOperators

namespace Cert.GmmPosterior.Real

open Idealize.ShloMosaic Idealize.ShloMosaic.ValueIdx Cert.ReferenceIdeal Cert.ReferenceIdeal.Gen Cert.ReferenceIdeal.Read Cert.LibRealVec

/-- A vector whose entries all have absolute value below +∞ — the entrywise comparison reduced by "and" to 1 — is all
    real. -/
theorem allReal_of_all_abs_lt {s : Shape} {axes : List (Fin s.rank)} (x : FVec Ideal s .f32)
    (y : FVec Ideal s .f32) (hy : ∀ i, y i = Ideal.ofBits .f32 0x7F800000#32)
    (hr : s.ReducesTo axes (⟨0, ![]⟩ : Shape)) (hu : 0 < (⟨0, ![]⟩ : Shape).numel)
    (init : IVec (⟨0, ![]⟩ : Shape) 1)
    (e : Host.reduce IntOp.andi (cmpf .olt (Host.absf x) y) init hr hu ix0 = 1#1) : AllReal x := by
  -- the shape with no axes has one index, so every entry is conjoined into the one result
  haveI : Subsingleton (⟨0, ![]⟩ : Shape).Idx := ⟨fun a b => funext fun d => d.elim0⟩
  intro i
  have h := Host.reduce_andi_all _ init hr hu ix0 e i
  refine Cert.LibFiniteReal.real_of_abs_lt (x i) ?_
  rw [← hy i]
  exact h

/-- The precondition read entry by entry: each of the four inputs is all real. -/
theorem allReal_of_pre (a0 : FVec Ideal S16x128x16384 .f32) (a1 a2 : FVec Ideal S64x128 .f32) (a3 : FVec Ideal S64 .f32)
    (h : Cert.Pre_finite_inputs.fn (F := Ideal) a0 a1 a2 a3 = (fun _ => 1#1)) :
    AllReal a0 ∧ AllReal a1 ∧ AllReal a2 ∧ AllReal a3 := by
  have e := congrFun h ValueIdx.ix0
  dsimp only [Cert.Pre_finite_inputs.fn, Cert.Pre_finite_inputs.fn_part1] at e
  -- the four "all entries finite" words, conjoined
  obtain ⟨e012, e3⟩ := IntOp.andi_eq_one.1 e
  obtain ⟨e01, e2⟩ := IntOp.andi_eq_one.1 e012
  obtain ⟨e0, e1⟩ := IntOp.andi_eq_one.1 e01
  exact ⟨allReal_of_all_abs_lt a0 _ (fun _ => rfl) _ _ _ e0, allReal_of_all_abs_lt a1 _ (fun _ => rfl) _ _ _ e1,
    allReal_of_all_abs_lt a2 _ (fun _ => rfl) _ _ _ e2, allReal_of_all_abs_lt a3 _ (fun _ => rfl) _ _ _ e3⟩

/-- The pattern 0x2B8CBCCC (the lower bound of the norm) denotes a positive real. -/
theorem eps_pos : ∃ e : ℝ, Ideal.ofBits .f32 0x2B8CBCCC#32 = (e : EReal) ∧ 0 < e := by
  -- sign +, exponent field 87, significand field 834764: the value is 9223372 · 2⁻⁶³
  simp only [Ideal.ofBits, Ideal.ieee]
  simp
  exact ⟨_, (EReal.coe_mul _ _).symm, by positivity⟩

/-- The squared norm of a row of a real matrix, as the reference sums it, is a non-negative real. -/
theorem sqnorm_nonneg (x1 : FVec Ideal S64x128 .f32) (h1 : AllReal x1) (i : S64x1.Idx) :
    ∃ r : ℝ, val_main_call0_v2 (F := Ideal) x1 i = (r : EReal) ∧ 0 ≤ r := by
  obtain ⟨r, rfl⟩ := h1.lift
  refine ⟨∑ k : Fin 128, r (idx_main_call0_v1 (idx_main_call0_v2 i) k) * r (idx_main_call0_v1 (idx_main_call0_v2 i) k), ?_,
    Finset.sum_nonneg fun k _ => mul_self_nonneg _⟩
  rw [val_main_call0_v2_apply, val_main_call0_v1_apply, val_main_call0_cst_apply]
  simp only [val_main_call0_v0_apply, Ideal.ofBits_def, Ideal.mulf_def, Ideal.ofBits_zero_f32, zero_add]
  rw [coe_sum]
  exact Finset.sum_congr rfl fun k _ => (EReal.coe_mul _ _).symm

/-- The norm of each row, bounded below by the positive constant, is real and not zero. -/
theorem allReal_norm (x1 : FVec Ideal S64x128 .f32) (h1 : AllReal x1) :
    AllReal (val_main_v4 (F := Ideal) x1) ∧ ∀ i, val_main_v4 (F := Ideal) x1 i ≠ 0 := by
  obtain ⟨e, he, hpos⟩ := eps_pos
  have hsqrt : AllReal (val_main_v1 (F := Ideal) x1) := AllReal.host_sqrt (sqnorm_nonneg x1 h1)
  have hc : AllReal (val_main_v2 (F := Ideal)) :=
    AllReal.broadcastInDim (AllReal.constant_f32 _ _ (by decide)) _ _ _
  have h3 : AllReal (val_main_v3 (F := Ideal) x1) := AllReal.maximumf hsqrt hc
  refine ⟨AllReal.broadcastInDim h3 _ _ _, fun i => ?_⟩
  rw [val_main_v4_apply, val_main_v3_apply, val_main_v2_apply, val_main_cst_apply]
  simp only [Ideal.ofBits_def, Ideal.maximumf_def]
  rw [he]
  refine ne_of_gt (lt_of_lt_of_le ?_ (le_max_right _ _))
  exact EReal.coe_pos.2 hpos

/-- The centres divided by their bounded norms are real. -/
theorem allReal_unit (x1 : FVec Ideal S64x128 .f32) (h1 : AllReal x1) : AllReal (val_main_v5 (F := Ideal) x1) := by
  obtain ⟨h4, h0⟩ := allReal_norm x1 h1
  exact AllReal.host_divf h1 h4 h0

/-- The parameter stages of real inputs are real: the inverse scale exp(−s), -/
theorem allReal_sinv (x2 : FVec Ideal S64x128 .f32) (h2 : AllReal x2) : AllReal (val_main_v7 (F := Ideal) x2) :=
  AllReal.host_exp (AllReal.host_negf h2)
/-- the scaled normalised centre, -/
theorem allReal_musig (x1 x2 : FVec Ideal S64x128 .f32) (h1 : AllReal x1) (h2 : AllReal x2) :
    AllReal (val_main_v11 (F := Ideal) x1 x2) :=
  AllReal.mulf (allReal_unit x1 h1) (allReal_sinv x2 h2)
/-- the row sums of the squared normalised centre times the inverse scale, -/
theorem allReal_muterm (x1 x2 : FVec Ideal S64x128 .f32) (h1 : AllReal x1) (h2 : AllReal x2) :
    AllReal (val_main_v15 (F := Ideal) x1 x2) :=
  AllReal.host_reduceAdd (AllReal.mulf (AllReal.mulf (allReal_unit x1 h1) (allReal_unit x1 h1)) (allReal_sinv x2 h2))
    (AllReal.constant_zero_f32 _) _ _
/-- and half the row sums of the log-scales. -/
theorem allReal_halfsum (x2 : FVec Ideal S64x128 .f32) (h2 : AllReal x2) : AllReal (val_main_v27 (F := Ideal) x2) :=
  AllReal.mulf (AllReal.broadcastInDim (AllReal.constant_f32 _ _ (by decide)) _ _ _)
    (AllReal.host_reduceAdd h2 (AllReal.constant_zero_f32 _) _ _)

end Cert.GmmPosterior.Real

end
-- ==== Proof.lean ====
/-
  The responsibilities of a mixture of 64 diagonal Gaussians, computed by a tiled kernel and by a plain reference.

  Both programs first prepare the same parameter arrays with the same operations: the inverse scale exp(−log σ), the
  centres divided by max(their norm, 1e-12), their product M, the sums Σ_d log σ and μ = Σ_d c²·exp(−log σ). The
  kernel gathers β = log α − ½ Σ log σ − μ on the host and forms the logits −Σ S·x² + 2 Σ M·x + β per sample; the
  reference forms −((Σ x²·S − 2 Σ x·M) + μ) + log α − ½ Σ log σ. Both then take the softmax over the 64 components
  with the row maximum subtracted. On the extended reals the two logits agree when every term is finite, which the
  precondition gives: finite inputs make every parameter a real number (the norm's divisor is at least the
  positive literal, the square root's argument a sum of squares), and on real numbers the two arrangements are one
  polynomial identity. The softmax is then applied to equal rows.

  The pieces: Spec (the two arrangements and the identity), KernelPayload (the kernel body's value at an index),
  KernelValue (blocks to the whole array, the host operations before the region), RefRead (the reference's value at an
  index), RealParams (finiteness), and the assembly below.
-/
import proofs.«102254_j64269890617659_1_alg».proof.Defs
import proofs.«102254_j64269890617659_1_alg».proof.Proof.Gen.Kernel
import proofs.«102254_j64269890617659_1_alg».proof.Proof.Gen.Kernel.Skeleton
import proofs.«102254_j64269890617659_1_alg».proof.Proof.Gen.Kernel.Launch
import proofs.«102254_j64269890617659_1_alg».proof.Proof.Gen.Kernel.Points
import proofs.«102254_j64269890617659_1_alg».proof.Proof.Gen.Kernel.Frame
import proofs.«102254_j64269890617659_1_alg».proof.Proof.Gen.KernelIdeal
import proofs.«102254_j64269890617659_1_alg».proof.Proof.Gen.KernelIdeal.Skeleton
import proofs.«102254_j64269890617659_1_alg».proof.Proof.Gen.KernelIdeal.Launch
import proofs.«102254_j64269890617659_1_alg».proof.Proof.Gen.KernelIdeal.Points
import proofs.«102254_j64269890617659_1_alg».proof.Proof.Gen.KernelIdeal.Frame
import proofs.«102254_j64269890617659_1_alg».proof.Proof.Gen.ReferenceIdeal
import proofs.«102254_j64269890617659_1_alg».proof.Proof.Gen.Pre_finite_inputs
import proofs.«102254_j64269890617659_1_alg».proof.Proof.Gen.KernelIdeal.Value
import proofs.«102254_j64269890617659_1_alg».proof.Proof.Gen.ReferenceIdeal.Run
import proofs.«102254_j64269890617659_1_alg».proof.Proof.Gen.ReferenceIdeal.Read
import proofs.«102254_j64269890617659_1_alg».proof.Proof.Spec
import proofs.«102254_j64269890617659_1_alg».proof.Proof.KernelValue
import proofs.«102254_j64269890617659_1_alg».proof.Proof.RefRead
import proofs.«102254_j64269890617659_1_alg».proof.Proof.RealParams
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged: the generated frame. -/
theorem frame_kernel : Cert.frame_Kernel := fun m ρ _ => Cert.Kernel.Gen.frame m ρ

/-- The same for the kernel read at the exact values. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, finite by the precondition, both programs end with the
    responsibilities of the arguments: the kernel's run has them in the gathered arrangement, the reference's in the
    separate one, and the two are one function on real parameters. -/
theorem algebraic : Cert.algebraic_KernelIdeal_ReferenceIdeal := by
  intro m ρ m' ρ' hpre hagree
  refine ⟨_, Cert.GmmPosterior.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.GmmPosterior.Ref.ref_eq,
    (hagree c).1, (hagree c).2.1, (hagree c).2.2.1, (hagree c).2.2.2]
  obtain ⟨h0, h1, h2, h3⟩ := Cert.GmmPosterior.Real.allReal_of_pre _ _ _ _ (hpre c)
  exact Cert.GmmPosterior.postR_eq_postK _ _ _ _ _ _ _ h0
    (Cert.GmmPosterior.Real.allReal_sinv _ h2) (Cert.GmmPosterior.Real.allReal_musig _ _ h1 h2)
    (Cert.GmmPosterior.Real.allReal_muterm _ _ h1 h2) h3 (Cert.GmmPosterior.Real.allReal_halfsum _ h2)
    (fun k => Cert.GmmPosterior.Blocks.betaOf_apply _ _ _ k)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
